-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S64x128 : Shape := ⟨2, ![64, 128]⟩
abbrev S64x1 : Shape := ⟨2, ![64, 1]⟩
abbrev S64x8192 : Shape := ⟨2, ![64, 8192]⟩
abbrev S64 : Shape := ⟨1, ![64]⟩

abbrev nBuf : Space → Nat
  | .hbm => 21
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .bf16⟩
  | .hbm, ⟨6, _⟩ => ⟨S8192x1, .f32⟩
  | .hbm, ⟨7, _⟩ => ⟨S1x8192, .f32⟩
  | .hbm, ⟨8, _⟩ => ⟨S8192x1, .i32⟩
  | .hbm, ⟨9, _⟩ => ⟨S1x8192, .i32⟩
  | .hbm, ⟨10, _⟩ => ⟨S8192x1, .f32⟩
  | .hbm, ⟨11, _⟩ => ⟨S1x8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S64x128, .bf16⟩
  | .local _ .vmem, ⟨1, _⟩ => ⟨S64x128, .bf16⟩
  | .local _ .vmem, ⟨2, _⟩ => ⟨S8192x128, .bf16⟩
  | .local _ .vmem, ⟨3, _⟩ => ⟨S64x1, .f32⟩
  | .local _ .vmem, ⟨4, _⟩ => ⟨S64x1, .f32⟩
  | .local _ .vmem, ⟨5, _⟩ => ⟨S1x8192, .f32⟩
  | .local _ .vmem, ⟨6, _⟩ => ⟨S64x1, .i32⟩
  | .local _ .vmem, ⟨7, _⟩ => ⟨S64x1, .i32⟩
  | .local _ .vmem, ⟨8, _⟩ => ⟨S1x8192, .i32⟩
  | .local _ .vmem, ⟨9, _⟩ => ⟨S64x1, .f32⟩
  | .local _ .vmem, ⟨10, _⟩ => ⟨S64x1, .f32⟩
  | .local _ .vmem, ⟨11, _⟩ => ⟨S64x128, .bf16⟩
  | .local _ .vmem, ⟨12, _⟩ => ⟨S64x128, .bf16⟩
  | .local _ .vmem, ⟨13, _⟩ => ⟨S8192x128, .bf16⟩
  | .local _ .vmem, ⟨14, _⟩ => ⟨S64x1, .f32⟩
  | .local _ .vmem, ⟨15, _⟩ => ⟨S64x1, .f32⟩
  | .local _ .vmem, ⟨16, _⟩ => ⟨S1x8192, .f32⟩
  | .local _ .vmem, ⟨17, _⟩ => ⟨S64x1, .i32⟩
  | .local _ .vmem, ⟨18, _⟩ => ⟨S64x1, .i32⟩
  | .local _ .vmem, ⟨19, _⟩ => ⟨S1x8192, .i32⟩
  | .local _ .vmem, ⟨20, _⟩ => ⟨S64x1, .f32⟩
  | .local _ .vmem, ⟨21, _⟩ => ⟨S64x1, .f32⟩
  | .local _ .vmem, ⟨22, _⟩ => ⟨S1x8192, .f32⟩
  | .local _ .vmem, ⟨23, _⟩ => ⟨S64x1, .f32⟩
  | .local _ .vmem, ⟨24, _⟩ => ⟨S64x1, .f32⟩
  | .local _ .vmem, ⟨25, _⟩ => ⟨S64x1, .f32⟩
  | .local _ .vmem, ⟨26, _⟩ => ⟨S64x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8192 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x8192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x8192 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S64x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x8192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S64x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  reducesTo_S8192x128_S8192_d1 : S8192x128.ReducesTo [1] S8192
  h_S_ : 0 < S_.numel
  bitsLt_bf16_f32 : FTy.bits .bf16 < FTy.bits .f32
  shapeCasts_S8192_S8192x1 : S8192.ShapeCasts S8192x1
  shapeCasts_S8192_S1x8192 : S8192.ShapeCasts S1x8192
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S64x8192 : S1x8192.Broadcasts S64x8192
  natLt_1_32 : 1 < 32
  reduces_S64x8192_S64 : S64x8192.Reduces [1] S64
  shapeCasts_S64_S64x1 : S64.ShapeCasts S64x1
  shapeCasts_S8192x1_S1x8192 : S8192x1.ShapeCasts S1x8192
  reducesTo_S8192x1_S_d0_1 : S8192x1.ReducesTo [0, 1] S_
  dot_S64x128_S8192x128_S64x8192_1_1_0_0_n_n_wf : DotDims.WF S64x128 S8192x128 S64x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S8192x128.size a
  hwx0_0 : ∀ i : grid0.Coords, EltTy.bits .bf16 = 32 ∨ (Rect.block (s := S8192x128) S64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S8192x1.size a
  hwx0_2 : ∀ i : grid0.Coords, EltTy.bits .f32 = 32 ∨ (Rect.block (s := S8192x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S8192x1.size a
  hwx0_4 : ∀ i : grid0.Coords, EltTy.bits .i32 = 32 ∨ (Rect.block (s := S8192x1) S64x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .i32 = 32 ∨ (Rect.block (s := S1x8192) S1x8192.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S8192x1.size a
  hwx0_6 : ∀ i : grid0.Coords, EltTy.bits .f32 = 32 ∨ (Rect.block (s := S8192x1) S64x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S8192x128.size a
  hwx1_0 : ∀ i : grid1.Coords, EltTy.bits .bf16 = 32 ∨ (Rect.block (s := S8192x128) S64x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S8192x1.size a
  hwx1_2 : ∀ i : grid1.Coords, EltTy.bits .f32 = 32 ∨ (Rect.block (s := S8192x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8192.size a ≤ S1x8192.size a
  hwx1_3 : ∀ i : grid1.Coords, EltTy.bits .f32 = 32 ∨ (Rect.block (s := S1x8192) S1x8192.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x1.size a ≤ S8192x1.size a
  hwx1_4 : ∀ i : grid1.Coords, EltTy.bits .i32 = 32 ∨ (Rect.block (s := S8192x1) S64x1.size (cc1_transform_4 i) (hinb1_4 i)).WholeWords (EltTy.packing .i32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x8192.size a ≤ S1x8192.size a
  hwx1_5 : ∀ i : grid1.Coords, EltTy.bits .i32 = 32 ∨ (Rect.block (s := S1x8192) S1x8192.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x1.size a ≤ S8192x1.size a
  hwx1_6 : ∀ i : grid1.Coords, EltTy.bits .f32 = 32 ∨ (Rect.block (s := S8192x1) S64x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8192.size a ≤ S1x8192.size a
  hwx1_7 : ∀ i : grid1.Coords, EltTy.bits .f32 = 32 ∨ (Rect.block (s := S1x8192) S1x8192.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x1.size a ≤ S8192x1.size a
  hwx1_8 : ∀ i : grid1.Coords, EltTy.bits .f32 = 32 ∨ (Rect.block (s := S8192x1) S64x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S64x1.size a ≤ S8192x1.size a
  hwx1_9 : ∀ i : grid1.Coords, EltTy.bits .f32 = 32 ∨ (Rect.block (s := S8192x1) S64x1.size (cc1_transform_9 i) (hinb1_9 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf

abbrev win0_0 : Pipeline.Window sig grid0 :=
  Pipeline.Window.ofSpec (Memref.whole main_v2) S64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v2) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x8192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S64x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x8192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S64x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v8) S1x8192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9_0) S64x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v9_1) S64x1.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S128x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i1⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S_, .f32⟩
  | .hbm, ⟨51, _⟩ => ⟨S8192x8192, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_4 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_5 : Ref sig .tc := ⟨.hbm, 45, rfl⟩
abbrev main_call0_v0 : Ref sig .tc := ⟨.hbm, 46, rfl⟩
abbrev main_call0_v1 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x128_S128x8192_1_0 : S8192x128.Transposes [1, 0] S128x8192
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192x8192_S_d0_1 : S8192x8192.ReducesTo [0, 1] S_
  natLt_1_32 : 1 < 32
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelTiles.lean ====
/-
  The two kernels' bodies, each run once on whole staging buffers.

  The first kernel, handed a tile of 64 rows of the features, all 8192 rows of the features, the
  squared norms as a 64-entry column and as an 8192-entry row, and the labels likewise, stores one
  64-entry column: for each row of the tile the sum over all 8192 columns of exp (1 - distance)
  over the pairs with different labels. The second kernel, handed those and also the first
  kernel's sums as a column tile and as a row, stores two 64-entry columns: the row sums of the
  hinged squared terms over the pairs with equal labels, and the row counts of such pairs.

  Each output buffer after the body is the one store's value over the loads (a single piece that
  covers the buffer); every input buffer is left as it was found.
-/
import proofs.«127788_j44169443672248_1_alg».proof.Proof.Gen.Kernel.Launch
import proofs.«127788_j44169443672248_1_alg».proof.Proof.Gen.Kernel.Skeleton
import proofs.«127788_j44169443672248_1_alg».proof.Proof.Gen.Kernel.Points
import Idealize.ShloMosaic.Lib.Pipeline.FrameBody
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-buffer rectangles the bodies load and store through -/

abbrev rTile : Rect S64x128 := Rect.unit (s := S64x128) ![0, 0] S64x128.size inb_S64x128_S64x128_0_0
abbrev rAll : Rect S8192x128 := Rect.unit (s := S8192x128) ![0, 0] S8192x128.size inb_S8192x128_S8192x128_0_0
abbrev rCol : Rect S64x1 := Rect.unit (s := S64x1) ![0, 0] S64x1.size inb_S64x1_S64x1_0_0
abbrev rRow : Rect S1x8192 := Rect.unit (s := S1x8192) ![0, 0] S1x8192.size inb_S1x8192_S1x8192_0_0

/-! ## What each body leaves in its output buffers -/

/-- The first kernel's output column, from its six input buffers. -/
def sCol (a : Vec F S64x128 .bf16) (b : Vec F S8192x128 .bf16) (qr : Vec F S64x1 .f32) (qc : Vec F S1x8192 .f32)
    (lr : Vec F S64x1 .i32) (lc : Vec F S1x8192 .i32) : Vec F S64x1 .f32 :=
  View.canon [⟨rCol, k0_pay1 (View.ld a rTile) (View.ld b rAll) (View.ld qr rCol) (View.ld qc rRow) (View.ld lr rCol) (View.ld lc rRow)⟩]

/-- The second kernel's first output column (the hinged squares summed over equal-label pairs), from its eight input buffers. -/
def lossCol (a : Vec F S64x128 .bf16) (b : Vec F S8192x128 .bf16) (qr : Vec F S64x1 .f32) (qc : Vec F S1x8192 .f32)
    (lr : Vec F S64x1 .i32) (lc : Vec F S1x8192 .i32) (sr : Vec F S64x1 .f32) (sc : Vec F S1x8192 .f32) : Vec F S64x1 .f32 :=
  View.canon [⟨rCol, k1_pay1 (k1_pay3 (View.ld lr rCol) (View.ld lc rRow))
    (k1_pay4 (View.ld a rTile) (View.ld b rAll) (View.ld qr rCol) (View.ld qc rRow) (View.ld sr rCol) (View.ld sc rRow))⟩]

/-- The second kernel's second output column (the count of equal-label pairs per row), from the two label buffers. -/
def cntCol (lr : Vec F S64x1 .i32) (lc : Vec F S1x8192 .i32) : Vec F S64x1 .f32 :=
  View.canon [⟨rCol, k1_pay2 (k1_pay3 (View.ld lr rCol) (View.ld lc rRow))⟩]

/-- One store through the whole-buffer rectangle covers the 64-entry column. -/
theorem cover_col (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-! ## The bodies' triples -/

set_option maxHeartbeats 1000000 in
/-- The first kernel on whole staging buffers: the six inputs held at contents `a … lc`, the output at anything; it
    ends with the inputs as they were and the output at `sCol` of them. -/
theorem run_s (c : Dev nD) (E : Set ℕ) (i : grid0.Coords)
    (arg1 : Memref sig .tc .vmem S64x128 .bf16) (harg1 : arg1.IsWhole) (arg2 : Memref sig .tc .vmem S8192x128 .bf16) (harg2 : arg2.IsWhole)
    (arg3 : Memref sig .tc .vmem S64x1 .f32) (harg3 : arg3.IsWhole) (arg4 : Memref sig .tc .vmem S1x8192 .f32) (harg4 : arg4.IsWhole)
    (arg5 : Memref sig .tc .vmem S64x1 .i32) (harg5 : arg5.IsWhole) (arg6 : Memref sig .tc .vmem S1x8192 .i32) (harg6 : arg6.IsWhole)
    (arg7 : Memref sig .tc .vmem S64x1 .f32) (harg7 : arg7.IsWhole)
    (a : Vec F S64x128 .bf16) (b : Vec F S8192x128 .bf16) (qr : Vec F S64x1 .f32) (qc : Vec F S1x8192 .f32)
    (lr : Vec F S64x1 .i32) (lc : Vec F S1x8192 .i32) (K : PUnit → sProp 𝕄) :
    iprop(owns (c : Thread nD τ) arg1 fullShare a ∗ owns (c : Thread nD τ) arg2 fullShare b ∗ owns (c : Thread nD τ) arg3 fullShare qr
        ∗ owns (c : Thread nD τ) arg4 fullShare qc ∗ owns (c : Thread nD τ) arg5 fullShare lr ∗ owns (c : Thread nD τ) arg6 fullShare lc
        ∗ (∃ d, owns (c : Thread nD τ) arg7 fullShare d)
        ∗ (iprop(owns (c : Thread nD τ) arg1 fullShare a ∗ owns (c : Thread nD τ) arg2 fullShare b ∗ owns (c : Thread nD τ) arg3 fullShare qr
            ∗ owns (c : Thread nD τ) arg4 fullShare qc ∗ owns (c : Thread nD τ) arg5 fullShare lr ∗ owns (c : Thread nD τ) arg6 fullShare lc
            ∗ owns (c : Thread nD τ) arg7 fullShare (sCol a b qr qc lr lc)) -∗ K ⟨⟩))
      ⊢ wp frame (wpE (defs₀ (F := F)) Variants.none c none) E (cc0__s_kernel i arg1 harg1 arg2 harg2 arg3 harg3 arg4 harg4 arg5 harg5 arg6 harg6 arg7 harg7) K := by
  simp only [cc0__s_kernel_eq_skeleton]; unfold cc0__s_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_col _)

set_option maxHeartbeats 2000000 in
/-- The second kernel on whole staging buffers: the eight inputs held at contents `a … sc`, the two outputs at
    anything; it ends with the inputs as they were and the outputs at `lossCol` and `cntCol` of them. -/
theorem run_loss (c : Dev nD) (E : Set ℕ) (i : grid1.Coords)
    (arg1 : Memref sig .tc .vmem S64x128 .bf16) (harg1 : arg1.IsWhole) (arg2 : Memref sig .tc .vmem S8192x128 .bf16) (harg2 : arg2.IsWhole)
    (arg3 : Memref sig .tc .vmem S64x1 .f32) (harg3 : arg3.IsWhole) (arg4 : Memref sig .tc .vmem S1x8192 .f32) (harg4 : arg4.IsWhole)
    (arg5 : Memref sig .tc .vmem S64x1 .i32) (harg5 : arg5.IsWhole) (arg6 : Memref sig .tc .vmem S1x8192 .i32) (harg6 : arg6.IsWhole)
    (arg7 : Memref sig .tc .vmem S64x1 .f32) (harg7 : arg7.IsWhole) (arg8 : Memref sig .tc .vmem S1x8192 .f32) (harg8 : arg8.IsWhole)
    (arg9 : Memref sig .tc .vmem S64x1 .f32) (harg9 : arg9.IsWhole) (arg10 : Memref sig .tc .vmem S64x1 .f32) (harg10 : arg10.IsWhole)
    (a : Vec F S64x128 .bf16) (b : Vec F S8192x128 .bf16) (qr : Vec F S64x1 .f32) (qc : Vec F S1x8192 .f32)
    (lr : Vec F S64x1 .i32) (lc : Vec F S1x8192 .i32) (sr : Vec F S64x1 .f32) (sc : Vec F S1x8192 .f32) (K : PUnit → sProp 𝕄) :
    iprop(owns (c : Thread nD τ) arg1 fullShare a ∗ owns (c : Thread nD τ) arg2 fullShare b ∗ owns (c : Thread nD τ) arg3 fullShare qr
        ∗ owns (c : Thread nD τ) arg4 fullShare qc ∗ owns (c : Thread nD τ) arg5 fullShare lr ∗ owns (c : Thread nD τ) arg6 fullShare lc
        ∗ owns (c : Thread nD τ) arg7 fullShare sr ∗ owns (c : Thread nD τ) arg8 fullShare sc
        ∗ (∃ d, owns (c : Thread nD τ) arg9 fullShare d) ∗ (∃ d, owns (c : Thread nD τ) arg10 fullShare d)
        ∗ (iprop(owns (c : Thread nD τ) arg1 fullShare a ∗ owns (c : Thread nD τ) arg2 fullShare b ∗ owns (c : Thread nD τ) arg3 fullShare qr
            ∗ owns (c : Thread nD τ) arg4 fullShare qc ∗ owns (c : Thread nD τ) arg5 fullShare lr ∗ owns (c : Thread nD τ) arg6 fullShare lc
            ∗ owns (c : Thread nD τ) arg7 fullShare sr ∗ owns (c : Thread nD τ) arg8 fullShare sc
            ∗ owns (c : Thread nD τ) arg9 fullShare (lossCol a b qr qc lr lc sr sc) ∗ owns (c : Thread nD τ) arg10 fullShare (cntCol lr lc)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9 arg10 harg10) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_col _)
  iexists _; isplitr
  swap; · iexact H9
  ipureintro
  try dsimp only
  exact View.read_writes_eq_canon _ _ _ (cover_col _)

end Cert.Kernel.Fr

end
-- ==== Proof.KernelDat.lean ====
/-
  The proof data of the two pipelines and their body obligations.

  Every input window of either kernel is uncut and never idle, so its current staging buffer holds its block of the
  array at every point (a window whose block index does not move is fetched once and keeps its block). After the body
  an input buffer still holds its block, and an output buffer holds the kernel's column computed from the input blocks.
-/
import proofs.«127788_j44169443672248_1_alg».proof.Proof.KernelTiles

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the windows' blocks, the proof data and the body obligation, at the entry contents `V` -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data on these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not (where it is not
    fetched its block index has not moved), for any proof data on these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not (where it is not
    fetched its block index has not moved), for any proof data on these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not (where it is not
    fetched its block index has not moved), for any proof data on these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds its block at every point, fetched there or not (where it is not
    fetched its block index has not moved), for any proof data on these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds its block at every point, fetched there or not (where it is not
    fetched its block index has not moved), for any proof data on these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The proof data of pipeline 0 on core `c`: the arrays as the region finds them; after the body at point `t` every
    input buffer at its block and every output buffer at the kernel's tile of the input blocks; the scoped rest and the
    generator register ride through untouched; nothing owed. Windows 0 and 1 read ONE array (the features in the narrow
    format, once as a tile of rows and once whole), which the core holds at the full share: each takes half of it. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => sCol (blk0 V c 0 t) (blk0 V c 1 t) (blk0 V c 2 t) (blk0 V c 3 t) (blk0 V c 4 t) (blk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = sCol (blk0 V c 0 t) (blk0 V c 1 t) (blk0 V c 2 t) (blk0 V c 3 t) (blk0 V c 4 t) (blk0 V c 5 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_s c Set.univ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5

  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the windows' blocks, the proof data and the body obligation, at the entry contents `V` -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data on these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not (where it is not
    fetched its block index has not moved), for any proof data on these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not (where it is not
    fetched its block index has not moved), for any proof data on these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not (where it is not
    fetched its block index has not moved), for any proof data on these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block at every point, fetched there or not (where it is not
    fetched its block index has not moved), for any proof data on these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's current staging buffer holds its block at every point, fetched there or not (where it is not
    fetched its block index has not moved), for any proof data on these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's current staging buffer holds its block at every point, fetched there or not (where it is not
    fetched its block index has not moved), for any proof data on these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7's current staging buffer holds its block at every point, fetched there or not (where it is not
    fetched its block index has not moved), for any proof data on these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The proof data of pipeline 1 on core `c`: the arrays as the region finds them; after the body at point `t` every
    input buffer at its block and every output buffer at the kernel's tile of the input blocks; the scoped rest and the
    generator register ride through untouched; nothing owed. Windows 0 and 1 read ONE array (the features in the narrow
    format, once as a tile of rows and once whole), which the core holds at the full share: each takes half of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => lossCol (blk1 V c 0 t) (blk1 V c 1 t) (blk1 V c 2 t) (blk1 V c 3 t) (blk1 V c 4 t) (blk1 V c 5 t) (blk1 V c 6 t) (blk1 V c 7 t)
    | ⟨9, _⟩ => cntCol (blk1 V c 4 t) (blk1 V c 5 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = lossCol (blk1 V c 0 t) (blk1 V c 1 t) (blk1 V c 2 t) (blk1 V c 3 t) (blk1 V c 4 t) (blk1 V c 5 t) (blk1 V c 6 t) (blk1 V c 7 t) := by dsimp only [dat1]
theorem after1_9 (c : Dev nD) (t : Fin cfg1.N) : (dat1 V c).after 9 t = cntCol (blk1 V c 4 t) (blk1 V c 5 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_loss c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.KernelArrays.lean ====
/-
  Entering and leaving a region: the windows' arrays against the core's unscoped buffers.

  Both kernels read the narrow-format features through two windows, a 64-row tile that moves with the grid and the
  whole array held in place. The core holds that buffer once, at the full share; on entry it is dealt to the two
  windows as the two halves of that share (a read needs any positive share), and on exit the halves are joined
  again. Every other array belongs to one window and is held at the full share throughout; an input array ends
  holding what it held, an output array what its write-backs left.
-/
import proofs.«127788_j44169443672248_1_alg».proof.Proof.KernelDat

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- The pipeline's arrays, window by window: the shared array at the two halves of the full share, every other at the full share. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_v2) ↦{fullShare.left} G 0)
      ∗ (((c : Thread nD τ).loc main_v2) ↦{fullShare.right} G 1)
      ∗ (((c : Thread nD τ).loc main_v3) ↦{fullShare} G 2)
      ∗ (((c : Thread nD τ).loc main_v4) ↦{fullShare} G 3)
      ∗ (((c : Thread nD τ).loc main_v5) ↦{fullShare} G 4)
      ∗ (((c : Thread nD τ).loc main_v6) ↦{fullShare} G 5)
      ∗ (((c : Thread nD τ).loc main_v7) ↦{fullShare} G 6)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h2, h3, h4, h5, h6]
  rfl

/-- The distinct buffers behind the windows' arrays, one by one. -/
theorem arrBufs0_eq (c : Dev nD) (X : (b : Ref sig .tc) → Buf (Elt F) ((c : Thread nD τ).loc b)) :
    (Pipeline.arrBufs spec0 c X : sProp 𝕄) = iprop(
      (((c : Thread nD τ).loc main_v2) ↦{fullShare} X main_v2)
      ∗ (((c : Thread nD τ).loc main_v3) ↦{fullShare} X main_v3)
      ∗ (((c : Thread nD τ).loc main_v4) ↦{fullShare} X main_v4)
      ∗ (((c : Thread nD τ).loc main_v5) ↦{fullShare} X main_v5)
      ∗ (((c : Thread nD τ).loc main_v6) ↦{fullShare} X main_v6)
      ∗ (((c : Thread nD τ).loc main_v7) ↦{fullShare} X main_v7)) := by
  unfold Pipeline.arrBufs
  exact bigSep_eq_bigSepL_of_eq [main_v2, main_v3, main_v4, main_v5, main_v6, main_v7] (by decide) (by decide) _

/-- What an input window's array holds at any point is what the region found there. -/
theorem arrAt0_in (c : Dev nD) (w : Fin cfg0.W) (hin : (cfg0.win w).isOut = false) (n : Nat) :
    (dat0 V c).arrAt w n = V c (Pipeline.arrRef spec0 w) :=
  ((dat0 V c).arrAt_in w hin n).trans (A_eq0 V c w)

/-- ENTRY: the buffers behind the arrays, each whole at the full share at the entry contents, are the pipeline's arrays
    at their first contents — the buffer two windows read is split into its two halves. -/
theorem enter0 (c : Dev nD) : (Pipeline.arrBufs spec0 c (V c) : sProp 𝕄) ⊢ (dat0 V c).arrays ((dat0 V c).arrAt · 0) := by
  rw [arrays0_eq, arrBufs0_eq]
  beta_reduce
  rw [show (dat0 V c).arrAt 0 0 = V c main_v2 from A_eq0 V c 0,
    show (dat0 V c).arrAt 1 0 = V c main_v2 from A_eq0 V c 1,
    show (dat0 V c).arrAt 2 0 = V c main_v3 from A_eq0 V c 2,
    show (dat0 V c).arrAt 3 0 = V c main_v4 from A_eq0 V c 3,
    show (dat0 V c).arrAt 4 0 = V c main_v5 from A_eq0 V c 4,
    show (dat0 V c).arrAt 5 0 = V c main_v6 from A_eq0 V c 5,
    show (dat0 V c).arrAt 6 0 = V c main_v7 from A_eq0 V c 6]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the pipeline's arrays at their last contents beside the unscoped rest as the region found it are the core's
    unscoped buffers at any contents `V'` that has each output array at what the write-backs left and agrees with the entry
    contents elsewhere — the two halves of the shared buffer are joined again. -/
theorem leave0 (c : Dev nD) (V' : (b : Ref sig .tc) → Buf (Elt F) ((c : Thread nD τ).loc b))
    (ho6 : V' main_v7 = (dat0 V c).arrAt 6 cfg0.N)
    (hrest : ∀ b : Ref sig .tc, b ≠ main_v7 → V' b = V c b) :
    iprop((dat0 V c).arrays ((dat0 V c).arrAt · cfg0.N) ∗ Pipeline.unscopedRest spec0 c (V c)) ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs 0 winFacts₀0.arr_unscoped c V'
  have hr : (Pipeline.unscopedRest spec0 c (V c) : sProp 𝕄) = Pipeline.unscopedRest spec0 c V' := by
    unfold Pipeline.unscopedRest
    exact bigSep_congr fun b hb => by
      rw [hrest b (fun e => (Finset.mem_sdiff.mp hb).2 (Finset.mem_image.mpr ⟨6, Finset.mem_univ _, by subst e; rfl⟩))]
  rw [hs, hr, arrays0_eq, arrBufs0_eq]
  beta_reduce
  rw [arrAt0_in V c 0 rfl, arrAt0_in V c 1 rfl, arrAt0_in V c 2 rfl, arrAt0_in V c 3 rfl, arrAt0_in V c 4 rfl, arrAt0_in V c 5 rfl,
    ho6,
    hrest main_v2 (by decide), hrest main_v3 (by decide), hrest main_v4 (by decide), hrest main_v5 (by decide), hrest main_v6 (by decide)]
  iintro ⟨⟨Hl, Hr, H1, H2, H3, H4, H5⟩, Hrest⟩
  isplitr [Hrest]
  swap; · iexact Hrest
  isplitl [Hl Hr]
  · iapply (pointsTo_share (PosShare.mem_left_op_right fullShare)).2
    isplitl [Hl] <;> iassumption
  isplitl [H1]; · iexact H1
  isplitl [H2]; · iexact H2
  isplitl [H3]; · iexact H3
  isplitl [H4]; · iexact H4
  iexact H5

/-! # Region 1 -/

/-- The pipeline's arrays, window by window: the shared array at the two halves of the full share, every other at the full share. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v2) ↦{fullShare.left} G 0)
      ∗ (((c : Thread nD τ).loc main_v2) ↦{fullShare.right} G 1)
      ∗ (((c : Thread nD τ).loc main_v3) ↦{fullShare} G 2)
      ∗ (((c : Thread nD τ).loc main_v4) ↦{fullShare} G 3)
      ∗ (((c : Thread nD τ).loc main_v5) ↦{fullShare} G 4)
      ∗ (((c : Thread nD τ).loc main_v6) ↦{fullShare} G 5)
      ∗ (((c : Thread nD τ).loc main_v7) ↦{fullShare} G 6)
      ∗ (((c : Thread nD τ).loc main_v8) ↦{fullShare} G 7)
      ∗ (((c : Thread nD τ).loc main_v9_0) ↦{fullShare} G 8)
      ∗ (((c : Thread nD τ).loc main_v9_1) ↦{fullShare} G 9)) := by
  unfold Dat.arrays
  rw [bigSep_W1]
  have h0 : (cfg1.win 0).arr.view.set = Finset.univ := (arr_whole1 0).set_eq_univ
  have h2 : (cfg1.win 2).arr.view.set = Finset.univ := (arr_whole1 2).set_eq_univ
  have h3 : (cfg1.win 3).arr.view.set = Finset.univ := (arr_whole1 3).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  have h7 : (cfg1.win 7).arr.view.set = Finset.univ := (arr_whole1 7).set_eq_univ
  have h8 : (cfg1.win 8).arr.view.set = Finset.univ := (arr_whole1 8).set_eq_univ
  have h9 : (cfg1.win 9).arr.view.set = Finset.univ := (arr_whole1 9).set_eq_univ
  rw [h0, h2, h3, h4, h5, h6, h7, h8, h9]
  rfl

/-- The distinct buffers behind the windows' arrays, one by one. -/
theorem arrBufs1_eq (c : Dev nD) (X : (b : Ref sig .tc) → Buf (Elt F) ((c : Thread nD τ).loc b)) :
    (Pipeline.arrBufs spec1 c X : sProp 𝕄) = iprop(
      (((c : Thread nD τ).loc main_v2) ↦{fullShare} X main_v2)
      ∗ (((c : Thread nD τ).loc main_v3) ↦{fullShare} X main_v3)
      ∗ (((c : Thread nD τ).loc main_v4) ↦{fullShare} X main_v4)
      ∗ (((c : Thread nD τ).loc main_v5) ↦{fullShare} X main_v5)
      ∗ (((c : Thread nD τ).loc main_v6) ↦{fullShare} X main_v6)
      ∗ (((c : Thread nD τ).loc main_v7) ↦{fullShare} X main_v7)
      ∗ (((c : Thread nD τ).loc main_v8) ↦{fullShare} X main_v8)
      ∗ (((c : Thread nD τ).loc main_v9_0) ↦{fullShare} X main_v9_0)
      ∗ (((c : Thread nD τ).loc main_v9_1) ↦{fullShare} X main_v9_1)) := by
  unfold Pipeline.arrBufs
  exact bigSep_eq_bigSepL_of_eq [main_v2, main_v3, main_v4, main_v5, main_v6, main_v7, main_v8, main_v9_0, main_v9_1] (by decide) (by decide) _

/-- What an input window's array holds at any point is what the region found there. -/
theorem arrAt1_in (c : Dev nD) (w : Fin cfg1.W) (hin : (cfg1.win w).isOut = false) (n : Nat) :
    (dat1 V c).arrAt w n = V c (Pipeline.arrRef spec1 w) :=
  ((dat1 V c).arrAt_in w hin n).trans (A_eq1 V c w)

/-- ENTRY: the buffers behind the arrays, each whole at the full share at the entry contents, are the pipeline's arrays
    at their first contents — the buffer two windows read is split into its two halves. -/
theorem enter1 (c : Dev nD) : (Pipeline.arrBufs spec1 c (V c) : sProp 𝕄) ⊢ (dat1 V c).arrays ((dat1 V c).arrAt · 0) := by
  rw [arrays1_eq, arrBufs1_eq]
  beta_reduce
  rw [show (dat1 V c).arrAt 0 0 = V c main_v2 from A_eq1 V c 0,
    show (dat1 V c).arrAt 1 0 = V c main_v2 from A_eq1 V c 1,
    show (dat1 V c).arrAt 2 0 = V c main_v3 from A_eq1 V c 2,
    show (dat1 V c).arrAt 3 0 = V c main_v4 from A_eq1 V c 3,
    show (dat1 V c).arrAt 4 0 = V c main_v5 from A_eq1 V c 4,
    show (dat1 V c).arrAt 5 0 = V c main_v6 from A_eq1 V c 5,
    show (dat1 V c).arrAt 6 0 = V c main_v7 from A_eq1 V c 6,
    show (dat1 V c).arrAt 7 0 = V c main_v8 from A_eq1 V c 7,
    show (dat1 V c).arrAt 8 0 = V c main_v9_0 from A_eq1 V c 8,
    show (dat1 V c).arrAt 9 0 = V c main_v9_1 from A_eq1 V c 9]
  iintro ⟨H0, H1, H2, H3, H4, H5, H6, H7, H8⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the pipeline's arrays at their last contents beside the unscoped rest as the region found it are the core's
    unscoped buffers at any contents `V'` that has each output array at what the write-backs left and agrees with the entry
    contents elsewhere — the two halves of the shared buffer are joined again. -/
theorem leave1 (c : Dev nD) (V' : (b : Ref sig .tc) → Buf (Elt F) ((c : Thread nD τ).loc b))
    (ho8 : V' main_v9_0 = (dat1 V c).arrAt 8 cfg1.N)
    (ho9 : V' main_v9_1 = (dat1 V c).arrAt 9 cfg1.N)
    (hrest : ∀ b : Ref sig .tc, b ≠ main_v9_0 → b ≠ main_v9_1 → V' b = V c b) :
    iprop((dat1 V c).arrays ((dat1 V c).arrAt · cfg1.N) ∗ Pipeline.unscopedRest spec1 c (V c)) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest spec1 c (V c) : sProp 𝕄) = Pipeline.unscopedRest spec1 c V' := by
    unfold Pipeline.unscopedRest
    exact bigSep_congr fun b hb => by
      rw [hrest b (fun e => (Finset.mem_sdiff.mp hb).2 (Finset.mem_image.mpr ⟨8, Finset.mem_univ _, by subst e; rfl⟩)) (fun e => (Finset.mem_sdiff.mp hb).2 (Finset.mem_image.mpr ⟨9, Finset.mem_univ _, by subst e; rfl⟩))]
  rw [hs, hr, arrays1_eq, arrBufs1_eq]
  beta_reduce
  rw [arrAt1_in V c 0 rfl, arrAt1_in V c 1 rfl, arrAt1_in V c 2 rfl, arrAt1_in V c 3 rfl, arrAt1_in V c 4 rfl, arrAt1_in V c 5 rfl, arrAt1_in V c 6 rfl, arrAt1_in V c 7 rfl,
    ho8, ho9,
    hrest main_v2 (by decide) (by decide), hrest main_v3 (by decide) (by decide), hrest main_v4 (by decide) (by decide), hrest main_v5 (by decide) (by decide), hrest main_v6 (by decide) (by decide), hrest main_v7 (by decide) (by decide), hrest main_v8 (by decide) (by decide)]
  iintro ⟨⟨Hl, Hr, H1, H2, H3, H4, H5, H6, H7, H8⟩, Hrest⟩
  isplitr [Hrest]
  swap; · iexact Hrest
  isplitl [Hl Hr]
  · iapply (pointsTo_share (PosShare.mem_left_op_right fullShare)).2
    isplitl [Hl] <;> iassumption
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Regions

end Cert.Kernel.Fr

end
-- ==== Proof.KernelRun.lean ====
/-
  The whole run: @main is three stretches of host operations around the two kernel regions.

  The contents of the core's unscoped buffers are followed from the launch to the return: a host stretch folds its
  operations over them; a region leaves every buffer as it found it except its output arrays, which end at what the
  write-backs of all grid points leave. Every weakly fair execution terminates, faulting nowhere, and the final
  memory holds every unscoped buffer at the last of these contents — in particular the two argument arrays as
  launched, and the result where the last host stretch put it.
-/
import proofs.«127788_j44169443672248_1_alg».proof.Proof.KernelArrays
import proofs.«127788_j44169443672248_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) := Function.update (W1 m c) main_v7 ((dat0 (E1 m) c).arrAt 6 cfg0.N)
abbrev E2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: its two output arrays at what the write-backs leave, every other buffer as entered. -/
def W4 (c : Dev nD) : Valuation τ sig (Elt F) :=
  Function.update (Function.update (W3 m c) main_v9_0 ((dat1 (E3 m) c).arrAt 8 cfg1.N)) main_v9_1 ((dat1 (E3 m) c).arrAt 9 cfg1.N)
abbrev E4 : (c : Dev nD) → (b : Ref sig .tc) → Buf (Elt F) ((c : Thread nD τ).loc b) := fun c b => W4 m c b
/-- After the last host stretch: the contents at the return. -/
abbrev W5 : Dev nD → Valuation τ sig (Elt F) := fun c => StableHlo.after hostOps2 (W4 m c)

theorem W2_out (c : Dev nD) : W2 m c (Proc.devRef .tc main_v7) = (dat0 (E1 m) c).arrAt 6 cfg0.N := by
  unfold W2; exact Function.update_self ..
theorem W2_of_ne (c : Dev nD) (b : Ref sig .tc) (h : b ≠ main_v7) : W2 m c (Proc.devRef .tc b) = W1 m c (Proc.devRef .tc b) := by
  unfold W2; exact Function.update_of_ne (StableHlo.devRef_ne_of_ne h : (Proc.devRef .tc b : DevRef τ sig) ≠ Proc.devRef .tc main_v7) _ _
theorem W4_out1 (c : Dev nD) : W4 m c (Proc.devRef .tc main_v9_1) = (dat1 (E3 m) c).arrAt 9 cfg1.N := by
  unfold W4; exact Function.update_self ..
theorem W4_out0 (c : Dev nD) : W4 m c (Proc.devRef .tc main_v9_0) = (dat1 (E3 m) c).arrAt 8 cfg1.N := by
  unfold W4
  rw [Function.update_of_ne (StableHlo.devRef_ne_of_ne (by decide : main_v9_0 ≠ main_v9_1) : (Proc.devRef .tc main_v9_0 : DevRef τ sig) ≠ Proc.devRef .tc main_v9_1)]
  exact Function.update_self ..
theorem W4_of_ne (c : Dev nD) (b : Ref sig .tc) (h0 : b ≠ main_v9_0) (h1 : b ≠ main_v9_1) : W4 m c (Proc.devRef .tc b) = W3 m c (Proc.devRef .tc b) := by
  unfold W4
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at `W1`, left with them at `W2`. Its
    arrays are taken out of the unscoped buffers (the shared one split) and put back at the exit contents (joined); the
    generator register passes through the invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (E1 m c)) := by
      rw [← Pipeline.unscopedBufs_held c (W1 m c)]
      rw [show (unscopedBufs c (fun b => W1 m c b) : sProp 𝕄) = iprop(Pipeline.arrBufs spec0 c (E1 m c) ∗ Pipeline.unscopedRest spec0 c (E1 m c))
        from Pipeline.unscopedBufs_split₀ cfgs 0 winFacts₀0.arr_unscoped c (E1 m c)]
      exact sep_mono (enter0 (E1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
          ∗ Pipeline.unscopedRest (Ix := Unit) (Name := ℕ) (U := UR sig nD τ) (Lvl := ℕ) spec0 c (E1 m c))
        ⊢ (unscopedBufs c (E2 m c) : sProp 𝕄) := leave0 (E1 m) c (E2 m c) (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are taken out of the unscoped buffers (the shared one split) and put back at the exit contents (joined); the
    generator register passes through the invariant; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (E3 m c)) := by
      rw [← Pipeline.unscopedBufs_held c (W3 m c)]
      rw [show (unscopedBufs c (fun b => W3 m c b) : sProp 𝕄) = iprop(Pipeline.arrBufs spec1 c (E3 m c) ∗ Pipeline.unscopedRest spec1 c (E3 m c))
        from Pipeline.unscopedBufs_split₀ cfgs 1 winFacts₀1.arr_unscoped c (E3 m c)]
      exact sep_mono (enter1 (E3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N)
          ∗ Pipeline.unscopedRest (Ix := Unit) (Name := ℕ) (U := UR sig nD τ) (Lvl := ℕ) spec1 c (E3 m c))
        ⊢ (unscopedBufs c (E4 m c) : sProp 𝕄) := leave1 (E3 m) c (E4 m c) (W4_out0 m c) (W4_out1 m c) (fun b h0 h1 => W4_of_ne m c b h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W5_of (c : Dev nD) (r : Ref sig .tc) (h : r ∉ hostOps2_W) : W5 m c r = W4 m c r :=
  StableHlo.after_of_writes_sub hostOps2 _ hostOps2_writes h
theorem W3_of (c : Dev nD) (r : Ref sig .tc) (h : r ∉ hostOps1_W) : W3 m c r = W2 m c r :=
  StableHlo.after_of_writes_sub hostOps1 _ hostOps1_writes h
theorem W1_of (c : Dev nD) (r : Ref sig .tc) (h : r ∉ hostOps0_W) : W1 m c r = W0 m c r :=
  StableHlo.after_of_writes_sub hostOps0 _ hostOps0_writes h

/-- An argument reaches the end as launched: no host stretch writes it and no region's output array is it. -/
theorem W5_main_arg0 (c : Dev nD) : W5 m c main_arg0 = m ((c : Thread nD τ).loc main_arg0) :=
  (W5_of m c main_arg0 (by decide)).trans <| (W4_of_ne m c main_arg0 (by decide) (by decide)).trans <|
    (W3_of m c main_arg0 (by decide)).trans <| (W2_of_ne m c main_arg0 (by decide)).trans <| (W1_of m c main_arg0 (by decide)).trans rfl
theorem W5_main_arg1 (c : Dev nD) : W5 m c main_arg1 = m ((c : Thread nD τ).loc main_arg1) :=
  (W5_of m c main_arg1 (by decide)).trans <| (W4_of_ne m c main_arg1 (by decide) (by decide)).trans <|
    (W3_of m c main_arg1 (by decide)).trans <| (W2_of_ne m c main_arg1 (by decide)).trans <| (W1_of m c main_arg1 (by decide)).trans rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.Kernel.Fr

end
-- ==== Proof.KernelIdealTiles.lean ====
/-
  The two kernels' bodies, each run once on whole staging buffers.

  The first kernel, handed a tile of 64 rows of the features, all 8192 rows of the features, the
  squared norms as a 64-entry column and as an 8192-entry row, and the labels likewise, stores one
  64-entry column: for each row of the tile the sum over all 8192 columns of exp (1 - distance)
  over the pairs with different labels. The second kernel, handed those and also the first
  kernel's sums as a column tile and as a row, stores two 64-entry columns: the row sums of the
  hinged squared terms over the pairs with equal labels, and the row counts of such pairs.

  Each output buffer after the body is the one store's value over the loads (a single piece that
  covers the buffer); every input buffer is left as it was found.
-/
import proofs.«127788_j44169443672248_1_alg».proof.Proof.Gen.KernelIdeal.Launch
import proofs.«127788_j44169443672248_1_alg».proof.Proof.Gen.KernelIdeal.Skeleton
import proofs.«127788_j44169443672248_1_alg».proof.Proof.Gen.KernelIdeal.Points
import Idealize.ShloMosaic.Lib.Pipeline.FrameBody
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-buffer rectangles the bodies load and store through -/

abbrev rTile : Rect S64x128 := Rect.unit (s := S64x128) ![0, 0] S64x128.size inb_S64x128_S64x128_0_0
abbrev rAll : Rect S8192x128 := Rect.unit (s := S8192x128) ![0, 0] S8192x128.size inb_S8192x128_S8192x128_0_0
abbrev rCol : Rect S64x1 := Rect.unit (s := S64x1) ![0, 0] S64x1.size inb_S64x1_S64x1_0_0
abbrev rRow : Rect S1x8192 := Rect.unit (s := S1x8192) ![0, 0] S1x8192.size inb_S1x8192_S1x8192_0_0

/-! ## What each body leaves in its output buffers -/

/-- The first kernel's output column, from its six input buffers. -/
def sCol (a : Vec F S64x128 .bf16) (b : Vec F S8192x128 .bf16) (qr : Vec F S64x1 .f32) (qc : Vec F S1x8192 .f32)
    (lr : Vec F S64x1 .i32) (lc : Vec F S1x8192 .i32) : Vec F S64x1 .f32 :=
  View.canon [⟨rCol, k0_pay1 (View.ld a rTile) (View.ld b rAll) (View.ld qr rCol) (View.ld qc rRow) (View.ld lr rCol) (View.ld lc rRow)⟩]

/-- The second kernel's first output column (the hinged squares summed over equal-label pairs), from its eight input buffers. -/
def lossCol (a : Vec F S64x128 .bf16) (b : Vec F S8192x128 .bf16) (qr : Vec F S64x1 .f32) (qc : Vec F S1x8192 .f32)
    (lr : Vec F S64x1 .i32) (lc : Vec F S1x8192 .i32) (sr : Vec F S64x1 .f32) (sc : Vec F S1x8192 .f32) : Vec F S64x1 .f32 :=
  View.canon [⟨rCol, k1_pay1 (k1_pay3 (View.ld lr rCol) (View.ld lc rRow))
    (k1_pay4 (View.ld a rTile) (View.ld b rAll) (View.ld qr rCol) (View.ld qc rRow) (View.ld sr rCol) (View.ld sc rRow))⟩]

/-- The second kernel's second output column (the count of equal-label pairs per row), from the two label buffers. -/
def cntCol (lr : Vec F S64x1 .i32) (lc : Vec F S1x8192 .i32) : Vec F S64x1 .f32 :=
  View.canon [⟨rCol, k1_pay2 (k1_pay3 (View.ld lr rCol) (View.ld lc rRow))⟩]

/-- One store through the whole-buffer rectangle covers the 64-entry column. -/
theorem cover_col (p0 : Vec F S64x1 .f32) (y : S64x1.Idx) :
    ∃ pc ∈ ([⟨rCol, p0⟩] : List (View.Piece (Elt F) S64x1 .f32)), y ∈ pc.1.set :=
  View.cover_of_tiled [⟨rCol, p0⟩] S64x1.size (by rfl) y

/-! ## The bodies' triples -/

set_option maxHeartbeats 1000000 in
/-- The first kernel on whole staging buffers: the six inputs held at contents `a … lc`, the output at anything; it
    ends with the inputs as they were and the output at `sCol` of them. -/
theorem run_s (c : Dev nD) (E : Set ℕ) (i : grid0.Coords)
    (arg1 : Memref sig .tc .vmem S64x128 .bf16) (harg1 : arg1.IsWhole) (arg2 : Memref sig .tc .vmem S8192x128 .bf16) (harg2 : arg2.IsWhole)
    (arg3 : Memref sig .tc .vmem S64x1 .f32) (harg3 : arg3.IsWhole) (arg4 : Memref sig .tc .vmem S1x8192 .f32) (harg4 : arg4.IsWhole)
    (arg5 : Memref sig .tc .vmem S64x1 .i32) (harg5 : arg5.IsWhole) (arg6 : Memref sig .tc .vmem S1x8192 .i32) (harg6 : arg6.IsWhole)
    (arg7 : Memref sig .tc .vmem S64x1 .f32) (harg7 : arg7.IsWhole)
    (a : Vec F S64x128 .bf16) (b : Vec F S8192x128 .bf16) (qr : Vec F S64x1 .f32) (qc : Vec F S1x8192 .f32)
    (lr : Vec F S64x1 .i32) (lc : Vec F S1x8192 .i32) (K : PUnit → sProp 𝕄) :
    iprop(owns (c : Thread nD τ) arg1 fullShare a ∗ owns (c : Thread nD τ) arg2 fullShare b ∗ owns (c : Thread nD τ) arg3 fullShare qr
        ∗ owns (c : Thread nD τ) arg4 fullShare qc ∗ owns (c : Thread nD τ) arg5 fullShare lr ∗ owns (c : Thread nD τ) arg6 fullShare lc
        ∗ (∃ d, owns (c : Thread nD τ) arg7 fullShare d)
        ∗ (iprop(owns (c : Thread nD τ) arg1 fullShare a ∗ owns (c : Thread nD τ) arg2 fullShare b ∗ owns (c : Thread nD τ) arg3 fullShare qr
            ∗ owns (c : Thread nD τ) arg4 fullShare qc ∗ owns (c : Thread nD τ) arg5 fullShare lr ∗ owns (c : Thread nD τ) arg6 fullShare lc
            ∗ owns (c : Thread nD τ) arg7 fullShare (sCol a b qr qc lr lc)) -∗ K ⟨⟩))
      ⊢ wp frame (wpE (defs₀ (F := F)) Variants.none c none) E (cc0__s_kernel i arg1 harg1 arg2 harg2 arg3 harg3 arg4 harg4 arg5 harg5 arg6 harg6 arg7 harg7) K := by
  simp only [cc0__s_kernel_eq_skeleton]; unfold cc0__s_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_col _)

set_option maxHeartbeats 2000000 in
/-- The second kernel on whole staging buffers: the eight inputs held at contents `a … sc`, the two outputs at
    anything; it ends with the inputs as they were and the outputs at `lossCol` and `cntCol` of them. -/
theorem run_loss (c : Dev nD) (E : Set ℕ) (i : grid1.Coords)
    (arg1 : Memref sig .tc .vmem S64x128 .bf16) (harg1 : arg1.IsWhole) (arg2 : Memref sig .tc .vmem S8192x128 .bf16) (harg2 : arg2.IsWhole)
    (arg3 : Memref sig .tc .vmem S64x1 .f32) (harg3 : arg3.IsWhole) (arg4 : Memref sig .tc .vmem S1x8192 .f32) (harg4 : arg4.IsWhole)
    (arg5 : Memref sig .tc .vmem S64x1 .i32) (harg5 : arg5.IsWhole) (arg6 : Memref sig .tc .vmem S1x8192 .i32) (harg6 : arg6.IsWhole)
    (arg7 : Memref sig .tc .vmem S64x1 .f32) (harg7 : arg7.IsWhole) (arg8 : Memref sig .tc .vmem S1x8192 .f32) (harg8 : arg8.IsWhole)
    (arg9 : Memref sig .tc .vmem S64x1 .f32) (harg9 : arg9.IsWhole) (arg10 : Memref sig .tc .vmem S64x1 .f32) (harg10 : arg10.IsWhole)
    (a : Vec F S64x128 .bf16) (b : Vec F S8192x128 .bf16) (qr : Vec F S64x1 .f32) (qc : Vec F S1x8192 .f32)
    (lr : Vec F S64x1 .i32) (lc : Vec F S1x8192 .i32) (sr : Vec F S64x1 .f32) (sc : Vec F S1x8192 .f32) (K : PUnit → sProp 𝕄) :
    iprop(owns (c : Thread nD τ) arg1 fullShare a ∗ owns (c : Thread nD τ) arg2 fullShare b ∗ owns (c : Thread nD τ) arg3 fullShare qr
        ∗ owns (c : Thread nD τ) arg4 fullShare qc ∗ owns (c : Thread nD τ) arg5 fullShare lr ∗ owns (c : Thread nD τ) arg6 fullShare lc
        ∗ owns (c : Thread nD τ) arg7 fullShare sr ∗ owns (c : Thread nD τ) arg8 fullShare sc
        ∗ (∃ d, owns (c : Thread nD τ) arg9 fullShare d) ∗ (∃ d, owns (c : Thread nD τ) arg10 fullShare d)
        ∗ (iprop(owns (c : Thread nD τ) arg1 fullShare a ∗ owns (c : Thread nD τ) arg2 fullShare b ∗ owns (c : Thread nD τ) arg3 fullShare qr
            ∗ owns (c : Thread nD τ) arg4 fullShare qc ∗ owns (c : Thread nD τ) arg5 fullShare lr ∗ owns (c : Thread nD τ) arg6 fullShare lc
            ∗ owns (c : Thread nD τ) arg7 fullShare sr ∗ owns (c : Thread nD τ) arg8 fullShare sc
            ∗ owns (c : Thread nD τ) arg9 fullShare (lossCol a b qr qc lr lc sr sc) ∗ owns (c : Thread nD τ) arg10 fullShare (cntCol lr lc)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9 arg10 harg10) K := by
  simp only [cc1__loss_kernel_eq_skeleton]; unfold cc1__loss_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_col _)
  iexists _; isplitr
  swap; · iexact H9
  ipureintro
  try dsimp only
  exact View.read_writes_eq_canon _ _ _ (cover_col _)

end Cert.KernelIdeal.Fr

end
-- ==== Proof.KernelIdealDat.lean ====
/-
  The proof data of the two pipelines and their body obligations.

  Every input window of either kernel is uncut and never idle, so its current staging buffer holds its block of the
  array at every point (a window whose block index does not move is fetched once and keeps its block). After the body
  an input buffer still holds its block, and an output buffer holds the kernel's column computed from the input blocks.
-/
import proofs.«127788_j44169443672248_1_alg».proof.Proof.KernelIdealTiles

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0: the windows' blocks, the proof data and the body obligation, at the entry contents `V` -/

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (where it is not
    fetched its block index has not moved), for any proof data on these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- Input window 1's current staging buffer holds its block at every point, fetched there or not (where it is not
    fetched its block index has not moved), for any proof data on these arrays whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- Input window 2's current staging buffer holds its block at every point, fetched there or not (where it is not
    fetched its block index has not moved), for any proof data on these arrays whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- Input window 3's current staging buffer holds its block at every point, fetched there or not (where it is not
    fetched its block index has not moved), for any proof data on these arrays whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)

/-- Input window 4's current staging buffer holds its block at every point, fetched there or not (where it is not
    fetched its block index has not moved), for any proof data on these arrays whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-- Input window 5's current staging buffer holds its block at every point, fetched there or not (where it is not
    fetched its block index has not moved), for any proof data on these arrays whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = blk0 V c 5 t) (t : Fin cfg0.N) (d) : dat.before 5 t d = blk0 V c 5 t :=
  (dat.before_in_eq_fetched 5 rfl (fun _ => rfl) (fun _ _ _ => rfl) (fun t => by rw [hafter]; unfold Dat.blockOf blk0; rw [hA]; try rfl) t d).trans
    (by unfold Dat.fetched Dat.blockOf blk0; rw [hA]; try rfl)

/-- The proof data of pipeline 0 on core `c`: the arrays as the region finds them; after the body at point `t` every
    input buffer at its block and every output buffer at the kernel's tile of the input blocks; the scoped rest and the
    generator register ride through untouched; nothing owed. Windows 0 and 1 read ONE array (the features in the narrow
    format, once as a tile of rows and once whole), which the core holds at the full share: each takes half of it. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => sCol (blk0 V c 0 t) (blk0 V c 1 t) (blk0 V c 2 t) (blk0 V c 3 t) (blk0 V c 4 t) (blk0 V c 5 t)
  Φ _ := Pipeline.ΦA spec0 c
  q w := match w with
    | ⟨0, _⟩ => fullShare.left
    | ⟨1, _⟩ => fullShare.right
    | _ => fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = blk0 V c 5 t := by dsimp only [dat0]
theorem after0_6 (c : Dev nD) (t : Fin cfg0.N) : (dat0 V c).after 6 t = sCol (blk0 V c 0 t) (blk0 V c 1 t) (blk0 V c 2 t) (blk0 V c 3 t) (blk0 V c 4 t) (blk0 V c 5 t) := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d
theorem before0_5 (c : Dev nD) (t : Fin cfg0.N) (d) : (dat0 V c).before 5 t d = blk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the kernel's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (run_s c Set.univ _ _ _ _ _ _ _ _ _ _ _ _ _ _ _ (blk0 V c 0 t) (blk0 V c 1 t) (blk0 V c 2 t) (blk0 V c 3 t) (blk0 V c 4 t) (blk0 V c 5 t) _)
  isplitl [H0]; · iexact H0
  isplitl [H1]; · iexact H1
  isplitl [H2]; · iexact H2
  isplitl [H3]; · iexact H3
  isplitl [H4]; · iexact H4
  isplitl [H5]; · iexact H5

  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the windows' blocks, the proof data and the body obligation, at the entry contents `V` -/

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (where it is not
    fetched its block index has not moved), for any proof data on these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- Input window 1's current staging buffer holds its block at every point, fetched there or not (where it is not
    fetched its block index has not moved), for any proof data on these arrays whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- Input window 2's current staging buffer holds its block at every point, fetched there or not (where it is not
    fetched its block index has not moved), for any proof data on these arrays whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- Input window 3's current staging buffer holds its block at every point, fetched there or not (where it is not
    fetched its block index has not moved), for any proof data on these arrays whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- Input window 4's current staging buffer holds its block at every point, fetched there or not (where it is not
    fetched its block index has not moved), for any proof data on these arrays whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- Input window 5's current staging buffer holds its block at every point, fetched there or not (where it is not
    fetched its block index has not moved), for any proof data on these arrays whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-- Input window 6's current staging buffer holds its block at every point, fetched there or not (where it is not
    fetched its block index has not moved), for any proof data on these arrays whose body leaves the block in place. -/
theorem before1_6_of {c : Dev nD} (dat : Dat τ (Elt F) Unit ℕ (UR sig nD τ) ℕ cfg1 c) (hA : dat.A 6 = V c (Pipeline.arrRef spec1 6))
    (hafter : ∀ t, dat.after 6 t = blk1 V c 6 t) (t : Fin cfg1.N) (d) : dat.before 6 t d = blk1 V c 6 t :=
  (dat.before_in_eq_fetched 6 rfl (fun _ => rfl) (fun _ _ _ => rfl) (fun t => by rw [hafter]; unfold Dat.blockOf blk1; rw [hA]; try rfl) t d).trans
    (by unfold Dat.fetched Dat.blockOf blk1; rw [hA]; try rfl)

/-- Input window 7's current staging buffer holds its block at every point, fetched there or not (where it is not
    fetched its block index has not moved), for any proof data on these arrays whose body leaves the block in place. -/
theorem before1_7_of {c : Dev nD} (dat : Dat τ (Elt F) Unit ℕ (UR sig nD τ) ℕ cfg1 c) (hA : dat.A 7 = V c (Pipeline.arrRef spec1 7))
    (hafter : ∀ t, dat.after 7 t = blk1 V c 7 t) (t : Fin cfg1.N) (d) : dat.before 7 t d = blk1 V c 7 t :=
  (dat.before_in_eq_fetched 7 rfl (fun _ => rfl) (fun _ _ _ => rfl) (fun t => by rw [hafter]; unfold Dat.blockOf blk1; rw [hA]; try rfl) t d).trans
    (by unfold Dat.fetched Dat.blockOf blk1; rw [hA]; try rfl)

/-- The proof data of pipeline 1 on core `c`: the arrays as the region finds them; after the body at point `t` every
    input buffer at its block and every output buffer at the kernel's tile of the input blocks; the scoped rest and the
    generator register ride through untouched; nothing owed. Windows 0 and 1 read ONE array (the features in the narrow
    format, once as a tile of rows and once whole), which the core holds at the full share: each takes half of it. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => lossCol (blk1 V c 0 t) (blk1 V c 1 t) (blk1 V c 2 t) (blk1 V c 3 t) (blk1 V c 4 t) (blk1 V c 5 t) (blk1 V c 6 t) (blk1 V c 7 t)
    | ⟨9, _⟩ => cntCol (blk1 V c 4 t) (blk1 V c 5 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = blk1 V c 6 t := by dsimp only [dat1]
theorem after1_7 (c : Dev nD) (t : Fin cfg1.N) : (dat1 V c).after 7 t = blk1 V c 7 t := by dsimp only [dat1]
theorem after1_8 (c : Dev nD) (t : Fin cfg1.N) : (dat1 V c).after 8 t = lossCol (blk1 V c 0 t) (blk1 V c 1 t) (blk1 V c 2 t) (blk1 V c 3 t) (blk1 V c 4 t) (blk1 V c 5 t) (blk1 V c 6 t) (blk1 V c 7 t) := by dsimp only [dat1]
theorem after1_9 (c : Dev nD) (t : Fin cfg1.N) : (dat1 V c).after 9 t = cntCol (blk1 V c 4 t) (blk1 V c 5 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d
theorem before1_2 (c : Dev nD) (t : Fin cfg1.N) (d) : (dat1 V c).before 2 t d = blk1 V c 2 t :=
  before1_2_of V (dat1 V c) (A_eq1 V c 2) (after1_2 V c) t d
theorem before1_3 (c : Dev nD) (t : Fin cfg1.N) (d) : (dat1 V c).before 3 t d = blk1 V c 3 t :=
  before1_3_of V (dat1 V c) (A_eq1 V c 3) (after1_3 V c) t d
theorem before1_4 (c : Dev nD) (t : Fin cfg1.N) (d) : (dat1 V c).before 4 t d = blk1 V c 4 t :=
  before1_4_of V (dat1 V c) (A_eq1 V c 4) (after1_4 V c) t d
theorem before1_5 (c : Dev nD) (t : Fin cfg1.N) (d) : (dat1 V c).before 5 t d = blk1 V c 5 t :=
  before1_5_of V (dat1 V c) (A_eq1 V c 5) (after1_5 V c) t d
theorem before1_6 (c : Dev nD) (t : Fin cfg1.N) (d) : (dat1 V c).before 6 t d = blk1 V c 6 t :=
  before1_6_of V (dat1 V c) (A_eq1 V c 6) (after1_6 V c) t d
theorem before1_7 (c : Dev nD) (t : Fin cfg1.N) (d) : (dat1 V c).before 7 t d = blk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point: the inputs' buffers hold their blocks, so the kernel's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_loss c Set.univ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.KernelIdealArrays.lean ====
/-
  Entering and leaving a region: the windows' arrays against the core's unscoped buffers.

  Both kernels read the narrow-format features through two windows, a 64-row tile that moves with the grid and the
  whole array held in place. The core holds that buffer once, at the full share; on entry it is dealt to the two
  windows as the two halves of that share (a read needs any positive share), and on exit the halves are joined
  again. Every other array belongs to one window and is held at the full share throughout; an input array ends
  holding what it held, an output array what its write-backs left.
-/
import proofs.«127788_j44169443672248_1_alg».proof.Proof.KernelIdealDat

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # Region 0 -/

/-- The pipeline's arrays, window by window: the shared array at the two halves of the full share, every other at the full share. -/
theorem arrays0_eq (c : Dev nD) (G : (w : Fin cfg0.W) → Buf (Elt F) ((cfg0.win w).arr.view.loc (c : Thread nD τ))) :
    ((dat0 V c).arrays G : sProp 𝕄) = iprop(
      (((c : Thread nD τ).loc main_v2) ↦{fullShare.left} G 0)
      ∗ (((c : Thread nD τ).loc main_v2) ↦{fullShare.right} G 1)
      ∗ (((c : Thread nD τ).loc main_v3) ↦{fullShare} G 2)
      ∗ (((c : Thread nD τ).loc main_v4) ↦{fullShare} G 3)
      ∗ (((c : Thread nD τ).loc main_v5) ↦{fullShare} G 4)
      ∗ (((c : Thread nD τ).loc main_v6) ↦{fullShare} G 5)
      ∗ (((c : Thread nD τ).loc main_v7) ↦{fullShare} G 6)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h2, h3, h4, h5, h6]
  rfl

/-- The distinct buffers behind the windows' arrays, one by one. -/
theorem arrBufs0_eq (c : Dev nD) (X : (b : Ref sig .tc) → Buf (Elt F) ((c : Thread nD τ).loc b)) :
    (Pipeline.arrBufs spec0 c X : sProp 𝕄) = iprop(
      (((c : Thread nD τ).loc main_v2) ↦{fullShare} X main_v2)
      ∗ (((c : Thread nD τ).loc main_v3) ↦{fullShare} X main_v3)
      ∗ (((c : Thread nD τ).loc main_v4) ↦{fullShare} X main_v4)
      ∗ (((c : Thread nD τ).loc main_v5) ↦{fullShare} X main_v5)
      ∗ (((c : Thread nD τ).loc main_v6) ↦{fullShare} X main_v6)
      ∗ (((c : Thread nD τ).loc main_v7) ↦{fullShare} X main_v7)) := by
  unfold Pipeline.arrBufs
  exact bigSep_eq_bigSepL_of_eq [main_v2, main_v3, main_v4, main_v5, main_v6, main_v7] (by decide) (by decide) _

/-- What an input window's array holds at any point is what the region found there. -/
theorem arrAt0_in (c : Dev nD) (w : Fin cfg0.W) (hin : (cfg0.win w).isOut = false) (n : Nat) :
    (dat0 V c).arrAt w n = V c (Pipeline.arrRef spec0 w) :=
  ((dat0 V c).arrAt_in w hin n).trans (A_eq0 V c w)

/-- ENTRY: the buffers behind the arrays, each whole at the full share at the entry contents, are the pipeline's arrays
    at their first contents — the buffer two windows read is split into its two halves. -/
theorem enter0 (c : Dev nD) : (Pipeline.arrBufs spec0 c (V c) : sProp 𝕄) ⊢ (dat0 V c).arrays ((dat0 V c).arrAt · 0) := by
  rw [arrays0_eq, arrBufs0_eq]
  beta_reduce
  rw [show (dat0 V c).arrAt 0 0 = V c main_v2 from A_eq0 V c 0,
    show (dat0 V c).arrAt 1 0 = V c main_v2 from A_eq0 V c 1,
    show (dat0 V c).arrAt 2 0 = V c main_v3 from A_eq0 V c 2,
    show (dat0 V c).arrAt 3 0 = V c main_v4 from A_eq0 V c 3,
    show (dat0 V c).arrAt 4 0 = V c main_v5 from A_eq0 V c 4,
    show (dat0 V c).arrAt 5 0 = V c main_v6 from A_eq0 V c 5,
    show (dat0 V c).arrAt 6 0 = V c main_v7 from A_eq0 V c 6]
  iintro ⟨H0, H1, H2, H3, H4, H5⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT: the pipeline's arrays at their last contents beside the unscoped rest as the region found it are the core's
    unscoped buffers at any contents `V'` that has each output array at what the write-backs left and agrees with the entry
    contents elsewhere — the two halves of the shared buffer are joined again. -/
theorem leave0 (c : Dev nD) (V' : (b : Ref sig .tc) → Buf (Elt F) ((c : Thread nD τ).loc b))
    (ho6 : V' main_v7 = (dat0 V c).arrAt 6 cfg0.N)
    (hrest : ∀ b : Ref sig .tc, b ≠ main_v7 → V' b = V c b) :
    iprop((dat0 V c).arrays ((dat0 V c).arrAt · cfg0.N) ∗ Pipeline.unscopedRest spec0 c (V c)) ⊢ (unscopedBufs c V' : sProp 𝕄) := by
  have hs : (unscopedBufs c V' : sProp 𝕄) = iprop(Pipeline.arrBufs spec0 c V' ∗ Pipeline.unscopedRest spec0 c V') :=
    Pipeline.unscopedBufs_split₀ cfgs 0 winFacts₀0.arr_unscoped c V'
  have hr : (Pipeline.unscopedRest spec0 c (V c) : sProp 𝕄) = Pipeline.unscopedRest spec0 c V' := by
    unfold Pipeline.unscopedRest
    exact bigSep_congr fun b hb => by
      rw [hrest b (fun e => (Finset.mem_sdiff.mp hb).2 (Finset.mem_image.mpr ⟨6, Finset.mem_univ _, by subst e; rfl⟩))]
  rw [hs, hr, arrays0_eq, arrBufs0_eq]
  beta_reduce
  rw [arrAt0_in V c 0 rfl, arrAt0_in V c 1 rfl, arrAt0_in V c 2 rfl, arrAt0_in V c 3 rfl, arrAt0_in V c 4 rfl, arrAt0_in V c 5 rfl,
    ho6,
    hrest main_v2 (by decide), hrest main_v3 (by decide), hrest main_v4 (by decide), hrest main_v5 (by decide), hrest main_v6 (by decide)]
  iintro ⟨⟨Hl, Hr, H1, H2, H3, H4, H5⟩, Hrest⟩
  isplitr [Hrest]
  swap; · iexact Hrest
  isplitl [Hl Hr]
  · iapply (pointsTo_share (PosShare.mem_left_op_right fullShare)).2
    isplitl [Hl] <;> iassumption
  isplitl [H1]; · iexact H1
  isplitl [H2]; · iexact H2
  isplitl [H3]; · iexact H3
  isplitl [H4]; · iexact H4
  iexact H5

/-! # Region 1 -/

/-- The pipeline's arrays, window by window: the shared array at the two halves of the full share, every other at the full share. -/
theorem arrays1_eq (c : Dev nD) (G : (w : Fin cfg1.W) → Buf (Elt F) ((cfg1.win w).arr.view.loc (c : Thread nD τ))) :
    ((dat1 V c).arrays G : sProp 𝕄) = iprop(
      (((c : Thread nD τ).loc main_v2) ↦{fullShare.left} G 0)
      ∗ (((c : Thread nD τ).loc main_v2) ↦{fullShare.right} G 1)
      ∗ (((c : Thread nD τ).loc main_v3) ↦{fullShare} G 2)
      ∗ (((c : Thread nD τ).loc main_v4) ↦{fullShare} G 3)
      ∗ (((c : Thread nD τ).loc main_v5) ↦{fullShare} G 4)
      ∗ (((c : Thread nD τ).loc main_v6) ↦{fullShare} G 5)
      ∗ (((c : Thread nD τ).loc main_v7) ↦{fullShare} G 6)
      ∗ (((c : Thread nD τ).loc main_v8) ↦{fullShare} G 7)
      ∗ (((c : Thread nD τ).loc main_v9_0) ↦{fullShare} G 8)
      ∗ (((c : Thread nD τ).loc main_v9_1) ↦{fullShare} G 9)) := by
  unfold Dat.arrays
  rw [bigSep_W1]
  have h0 : (cfg1.win 0).arr.view.set = Finset.univ := (arr_whole1 0).set_eq_univ
  have h2 : (cfg1.win 2).arr.view.set = Finset.univ := (arr_whole1 2).set_eq_univ
  have h3 : (cfg1.win 3).arr.view.set = Finset.univ := (arr_whole1 3).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  have h7 : (cfg1.win 7).arr.view.set = Finset.univ := (arr_whole1 7).set_eq_univ
  have h8 : (cfg1.win 8).arr.view.set = Finset.univ := (arr_whole1 8).set_eq_univ
  have h9 : (cfg1.win 9).arr.view.set = Finset.univ := (arr_whole1 9).set_eq_univ
  rw [h0, h2, h3, h4, h5, h6, h7, h8, h9]
  rfl

/-- The distinct buffers behind the windows' arrays, one by one. -/
theorem arrBufs1_eq (c : Dev nD) (X : (b : Ref sig .tc) → Buf (Elt F) ((c : Thread nD τ).loc b)) :
    (Pipeline.arrBufs spec1 c X : sProp 𝕄) = iprop(
      (((c : Thread nD τ).loc main_v2) ↦{fullShare} X main_v2)
      ∗ (((c : Thread nD τ).loc main_v3) ↦{fullShare} X main_v3)
      ∗ (((c : Thread nD τ).loc main_v4) ↦{fullShare} X main_v4)
      ∗ (((c : Thread nD τ).loc main_v5) ↦{fullShare} X main_v5)
      ∗ (((c : Thread nD τ).loc main_v6) ↦{fullShare} X main_v6)
      ∗ (((c : Thread nD τ).loc main_v7) ↦{fullShare} X main_v7)
      ∗ (((c : Thread nD τ).loc main_v8) ↦{fullShare} X main_v8)
      ∗ (((c : Thread nD τ).loc main_v9_0) ↦{fullShare} X main_v9_0)
      ∗ (((c : Thread nD τ).loc main_v9_1) ↦{fullShare} X main_v9_1)) := by
  unfold Pipeline.arrBufs
  exact bigSep_eq_bigSepL_of_eq [main_v2, main_v3, main_v4, main_v5, main_v6, main_v7, main_v8, main_v9_0, main_v9_1] (by decide) (by decide) _

/-- What an input window's array holds at any point is what the region found there. -/
theorem arrAt1_in (c : Dev nD) (w : Fin cfg1.W) (hin : (cfg1.win w).isOut = false) (n : Nat) :
    (dat1 V c).arrAt w n = V c (Pipeline.arrRef spec1 w) :=
  ((dat1 V c).arrAt_in w hin n).trans (A_eq1 V c w)

/-- ENTRY: the buffers behind the arrays, each whole at the full share at the entry contents, are the pipeline's arrays
    at their first contents — the buffer two windows read is split into its two halves. -/
theorem enter1 (c : Dev nD) : (Pipeline.arrBufs spec1 c (V c) : sProp 𝕄) ⊢ (dat1 V c).arrays ((dat1 V c).arrAt · 0) := by
  rw [arrays1_eq, arrBufs1_eq]
  beta_reduce
  rw [show (dat1 V c).arrAt 0 0 = V c main_v2 from A_eq1 V c 0,
    show (dat1 V c).arrAt 1 0 = V c main_v2 from A_eq1 V c 1,
    show (dat1 V c).arrAt 2 0 = V c main_v3 from A_eq1 V c 2,
    show (dat1 V c).arrAt 3 0 = V c main_v4 from A_eq1 V c 3,
    show (dat1 V c).arrAt 4 0 = V c main_v5 from A_eq1 V c 4,
    show (dat1 V c).arrAt 5 0 = V c main_v6 from A_eq1 V c 5,
    show (dat1 V c).arrAt 6 0 = V c main_v7 from A_eq1 V c 6,
    show (dat1 V c).arrAt 7 0 = V c main_v8 from A_eq1 V c 7,
    show (dat1 V c).arrAt 8 0 = V c main_v9_0 from A_eq1 V c 8,
    show (dat1 V c).arrAt 9 0 = V c main_v9_1 from A_eq1 V c 9]
  iintro ⟨H0, H1, H2, H3, H4, H5, H6, H7, H8⟩
  ihave Hs := (pointsTo_share (PosShare.mem_left_op_right fullShare)).1 $$ H0
  icases Hs with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- EXIT: the pipeline's arrays at their last contents beside the unscoped rest as the region found it are the core's
    unscoped buffers at any contents `V'` that has each output array at what the write-backs left and agrees with the entry
    contents elsewhere — the two halves of the shared buffer are joined again. -/
theorem leave1 (c : Dev nD) (V' : (b : Ref sig .tc) → Buf (Elt F) ((c : Thread nD τ).loc b))
    (ho8 : V' main_v9_0 = (dat1 V c).arrAt 8 cfg1.N)
    (ho9 : V' main_v9_1 = (dat1 V c).arrAt 9 cfg1.N)
    (hrest : ∀ b : Ref sig .tc, b ≠ main_v9_0 → b ≠ main_v9_1 → V' b = V c b) :
    iprop((dat1 V c).arrays ((dat1 V c).arrAt · cfg1.N) ∗ Pipeline.unscopedRest spec1 c (V c)) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have hr : (Pipeline.unscopedRest spec1 c (V c) : sProp 𝕄) = Pipeline.unscopedRest spec1 c V' := by
    unfold Pipeline.unscopedRest
    exact bigSep_congr fun b hb => by
      rw [hrest b (fun e => (Finset.mem_sdiff.mp hb).2 (Finset.mem_image.mpr ⟨8, Finset.mem_univ _, by subst e; rfl⟩)) (fun e => (Finset.mem_sdiff.mp hb).2 (Finset.mem_image.mpr ⟨9, Finset.mem_univ _, by subst e; rfl⟩))]
  rw [hs, hr, arrays1_eq, arrBufs1_eq]
  beta_reduce
  rw [arrAt1_in V c 0 rfl, arrAt1_in V c 1 rfl, arrAt1_in V c 2 rfl, arrAt1_in V c 3 rfl, arrAt1_in V c 4 rfl, arrAt1_in V c 5 rfl, arrAt1_in V c 6 rfl, arrAt1_in V c 7 rfl,
    ho8, ho9,
    hrest main_v2 (by decide) (by decide), hrest main_v3 (by decide) (by decide), hrest main_v4 (by decide) (by decide), hrest main_v5 (by decide) (by decide), hrest main_v6 (by decide) (by decide), hrest main_v7 (by decide) (by decide), hrest main_v8 (by decide) (by decide)]
  iintro ⟨⟨Hl, Hr, H1, H2, H3, H4, H5, H6, H7, H8⟩, Hrest⟩
  isplitr [Hrest]
  swap; · iexact Hrest
  isplitl [Hl Hr]
  · iapply (pointsTo_share (PosShare.mem_left_op_right fullShare)).2
    isplitl [Hl] <;> iassumption
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

end Regions

end Cert.KernelIdeal.Fr

end
-- ==== Proof.KernelIdealRun.lean ====
/-
  The whole run: @main is three stretches of host operations around the two kernel regions.

  The contents of the core's unscoped buffers are followed from the launch to the return: a host stretch folds its
  operations over them; a region leaves every buffer as it found it except its output arrays, which end at what the
  write-backs of all grid points leave. Every weakly fair execution terminates, faulting nowhere, and the final
  memory holds every unscoped buffer at the last of these contents — in particular the two argument arrays as
  launched, and the result where the last host stretch put it.
-/
import proofs.«127788_j44169443672248_1_alg».proof.Proof.KernelIdealArrays
import proofs.«127788_j44169443672248_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) := Function.update (W1 m c) main_v7 ((dat0 (E1 m) c).arrAt 6 cfg0.N)
abbrev E2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At region 1's exit: its two output arrays at what the write-backs leave, every other buffer as entered. -/
def W4 (c : Dev nD) : Valuation τ sig (Elt F) :=
  Function.update (Function.update (W3 m c) main_v9_0 ((dat1 (E3 m) c).arrAt 8 cfg1.N)) main_v9_1 ((dat1 (E3 m) c).arrAt 9 cfg1.N)
abbrev E4 : (c : Dev nD) → (b : Ref sig .tc) → Buf (Elt F) ((c : Thread nD τ).loc b) := fun c b => W4 m c b
/-- After the last host stretch: the contents at the return. -/
abbrev W5 : Dev nD → Valuation τ sig (Elt F) := fun c => StableHlo.after hostOps2 (W4 m c)

theorem W2_out (c : Dev nD) : W2 m c (Proc.devRef .tc main_v7) = (dat0 (E1 m) c).arrAt 6 cfg0.N := by
  unfold W2; exact Function.update_self ..
theorem W2_of_ne (c : Dev nD) (b : Ref sig .tc) (h : b ≠ main_v7) : W2 m c (Proc.devRef .tc b) = W1 m c (Proc.devRef .tc b) := by
  unfold W2; exact Function.update_of_ne (StableHlo.devRef_ne_of_ne h : (Proc.devRef .tc b : DevRef τ sig) ≠ Proc.devRef .tc main_v7) _ _
theorem W4_out1 (c : Dev nD) : W4 m c (Proc.devRef .tc main_v9_1) = (dat1 (E3 m) c).arrAt 9 cfg1.N := by
  unfold W4; exact Function.update_self ..
theorem W4_out0 (c : Dev nD) : W4 m c (Proc.devRef .tc main_v9_0) = (dat1 (E3 m) c).arrAt 8 cfg1.N := by
  unfold W4
  rw [Function.update_of_ne (StableHlo.devRef_ne_of_ne (by decide : main_v9_0 ≠ main_v9_1) : (Proc.devRef .tc main_v9_0 : DevRef τ sig) ≠ Proc.devRef .tc main_v9_1)]
  exact Function.update_self ..
theorem W4_of_ne (c : Dev nD) (b : Ref sig .tc) (h0 : b ≠ main_v9_0) (h1 : b ≠ main_v9_1) : W4 m c (Proc.devRef .tc b) = W3 m c (Proc.devRef .tc b) := by
  unfold W4
  rw [Function.update_of_ne (StableHlo.devRef_ne_of_ne h1 : (Proc.devRef .tc b : DevRef τ sig) ≠ Proc.devRef .tc main_v9_1),
    Function.update_of_ne (StableHlo.devRef_ne_of_ne h0 : (Proc.devRef .tc b : DevRef τ sig) ≠ Proc.devRef .tc main_v9_0)]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last contents, the generator register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered with every unscoped buffer at `W1`, left with them at `W2`. Its
    arrays are taken out of the unscoped buffers (the shared one split) and put back at the exit contents (joined); the
    generator register passes through the invariant; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit : (StableHlo.held (c : Thread nD τ) (Pipeline.ucRefs τ sig) (W1 m c) : sProp 𝕄)
        ⊢ iprop((pdats m 0 c).arrays ((pdats m 0 c).arrAt · 0) ∗ Pipeline.unscopedRest spec0 c (E1 m c)) := by
      rw [← Pipeline.unscopedBufs_held c (W1 m c)]
      rw [show (unscopedBufs c (fun b => W1 m c b) : sProp 𝕄) = iprop(Pipeline.arrBufs spec0 c (E1 m c) ∗ Pipeline.unscopedRest spec0 c (E1 m c))
        from Pipeline.unscopedBufs_split₀ cfgs 0 winFacts₀0.arr_unscoped c (E1 m c)]
      exact sep_mono (enter0 (E1 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · (Pipeline.pin (pcfgs (F := F)) adm 0).N)
          ∗ Pipeline.unscopedRest (Ix := Unit) (Name := ℕ) (U := UR sig nD τ) (Lvl := ℕ) spec0 c (E1 m c))
        ⊢ (unscopedBufs c (E2 m c) : sProp 𝕄) := leave0 (E1 m) c (E2 m c) (W2_out m c) (fun b hb => W2_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are taken out of the unscoped buffers (the shared one split) and put back at the exit contents (joined); the
    generator register passes through the invariant; nothing is owed; the kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0) ∗ Pipeline.unscopedRest spec1 c (E3 m c)) := by
      rw [← Pipeline.unscopedBufs_held c (W3 m c)]
      rw [show (unscopedBufs c (fun b => W3 m c b) : sProp 𝕄) = iprop(Pipeline.arrBufs spec1 c (E3 m c) ∗ Pipeline.unscopedRest spec1 c (E3 m c))
        from Pipeline.unscopedBufs_split₀ cfgs 1 winFacts₀1.arr_unscoped c (E3 m c)]
      exact sep_mono (enter1 (E3 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · (Pipeline.pin (pcfgs (F := F)) adm 1).N)
          ∗ Pipeline.unscopedRest (Ix := Unit) (Name := ℕ) (U := UR sig nD τ) (Lvl := ℕ) spec1 c (E3 m c))
        ⊢ (unscopedBufs c (E4 m c) : sProp 𝕄) := leave1 (E3 m) c (E4 m c) (W4_out0 m c) (W4_out1 m c) (fun b h0 h1 => W4_of_ne m c b h0 h1)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, Ho⟩
      isplitl [Hh Hp]
      · isplitl [Hh] <;> iassumption
      iexact Ho⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The arguments end as launched -/

theorem W5_of (c : Dev nD) (r : Ref sig .tc) (h : r ∉ hostOps2_W) : W5 m c r = W4 m c r :=
  StableHlo.after_of_writes_sub hostOps2 _ hostOps2_writes h
theorem W3_of (c : Dev nD) (r : Ref sig .tc) (h : r ∉ hostOps1_W) : W3 m c r = W2 m c r :=
  StableHlo.after_of_writes_sub hostOps1 _ hostOps1_writes h
theorem W1_of (c : Dev nD) (r : Ref sig .tc) (h : r ∉ hostOps0_W) : W1 m c r = W0 m c r :=
  StableHlo.after_of_writes_sub hostOps0 _ hostOps0_writes h

/-- An argument reaches the end as launched: no host stretch writes it and no region's output array is it. -/
theorem W5_main_arg0 (c : Dev nD) : W5 m c main_arg0 = m ((c : Thread nD τ).loc main_arg0) :=
  (W5_of m c main_arg0 (by decide)).trans <| (W4_of_ne m c main_arg0 (by decide) (by decide)).trans <|
    (W3_of m c main_arg0 (by decide)).trans <| (W2_of_ne m c main_arg0 (by decide)).trans <| (W1_of m c main_arg0 (by decide)).trans rfl
theorem W5_main_arg1 (c : Dev nD) : W5 m c main_arg1 = m ((c : Thread nD τ).loc main_arg1) :=
  (W5_of m c main_arg1 (by decide)).trans <| (W4_of_ne m c main_arg1 (by decide) (by decide)).trans <|
    (W3_of m c main_arg1 (by decide)).trans <| (W2_of_ne m c main_arg1 (by decide)).trans <| (W1_of m c main_arg1 (by decide)).trans rfl

/-- THE FRAME: every weakly fair execution terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W5_main_arg0 m c),
     (h c _ (mem_uc main_arg1 (by decide))).trans (W5_main_arg1 m c)⟩) (run_all m ρ)

end Cert.KernelIdeal.Fr

end
-- ==== Proof.Spec.lean ====
/-
  The lifted-structure loss as one function of the feature matrix and the labels, over the extended reals.

  For features x (8192 rows of 128 entries) and labels l: with q i = Σ_k x i k ², g i j = Σ_k x i k · x j k and
  d i j = √ max (q i − 2 g i j + q j, ε), let S i = Σ_j exp (1 − d i j) over the pairs with l i ≠ l j, and
  J i j = log (S i + S j) + d i j. The loss is
      ( Σ_i Σ_{j : l j = l i} max (J i j, 0)² ) / ( 2 · #{(i, j) : l i = l j} ),
  every sum started from the zero literal, the two constants and ε kept as the float literals the programs print.
  This is the arrangement of the tiled program (row sums first, then the sum of the rows); the arrangement of the
  reference (one sum over all pairs, the count taken in integers) is the same extended real.
-/
import Idealize.ShloMosaic.PureOps.Ideal
import Idealize.ShloMosaic.Lib.ValueIdx

noncomputable section

namespace Cert.Lifted

open Idealize.ShloMosaic

/-- The float literals of both programs, as printed. -/
abbrev zeroL : EReal := Ideal.ofBits .f32 0x00000000#32
abbrev oneL : EReal := Ideal.ofBits .f32 0x3F800000#32
abbrev twoL : EReal := Ideal.ofBits .f32 0x40000000#32
abbrev epsL : EReal := Ideal.ofBits .f32 0x24E69595#32

variable (x : Fin 8192 → Fin 128 → EReal) (l : Fin 8192 → BitVec 32)

/-- The squared norm of row `i`. -/
def sqn (i : Fin 8192) : EReal := zeroL + ∑ k : Fin 128, x i k * x i k
/-- The inner product of rows `i` and `j`. -/
def gram (i j : Fin 8192) : EReal := ∑ k : Fin 128, x i k * x j k
/-- The clamped Euclidean distance of rows `i` and `j`. -/
def dist (i j : Fin 8192) : EReal := Ideal.sqrt (max (sqn x i - twoL * gram x i j + sqn x j) epsL)
/-- One on the pairs with equal labels, zero elsewhere; and the other way round. -/
def same (i j : Fin 8192) : EReal := if l i = l j then 1 else 0
def differ (i j : Fin 8192) : EReal := if l i = l j then 0 else 1
/-- The sum over the differently labelled `j` of exp (1 − d i j). -/
def negSum (i : Fin 8192) : EReal := zeroL + ∑ j : Fin 8192, Ideal.exp (oneL - dist x i j) * differ l i j
/-- The hinged term of the pair, squared. -/
def hinge2 (i j : Fin 8192) : EReal :=
  max (Ideal.log (negSum x l i + negSum x l j) + dist x i j) zeroL * max (Ideal.log (negSum x l i + negSum x l j) + dist x i j) zeroL
/-- Row `i`'s sum of the hinged squares over the equally labelled `j`, and its count of them. -/
def rowLoss (i : Fin 8192) : EReal := zeroL + ∑ j : Fin 8192, hinge2 x l i j * same l i j
def rowCnt (i : Fin 8192) : EReal := zeroL + ∑ j : Fin 8192, same l i j
/-- The loss, rows first. -/
def loss : EReal := Ideal.div (zeroL + ∑ i : Fin 8192, rowLoss x l i) (twoL * (zeroL + ∑ i : Fin 8192, rowCnt l i))

end Cert.Lifted

end
-- ==== Proof.LibRowReduce.lean ====
/-
  Row reductions of an R × C float array at the ideal instance, read with coordinates.

  A kernel's lane sum and lane maximum over the second axis, and the host's reduce with a maximum body over it, at row
  `r`: the sum over `k` of the entries `(r, k)`, and the maximum of those entries folded from the initial value.
  The f32 pattern of minus infinity is the bottom element of the extended reals.
-/
import Idealize.ShloMosaic.PureOps.Ideal.Laws
import Idealize.ShloMosaic.Lib.ValueIdx

noncomputable section

namespace Cert.LibRowReduce

open Idealize.ShloMosaic Idealize.ShloMosaic.ValueIdx

variable {R C : Nat}

/-- Row `r` with the dropped second coordinate `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- A kernel's sum over the second axis, at row `r`. -/
theorem rowSum_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.add.neutral .f32 hφ) (r : Fin R) :
    multiReduction .add [1] ⟨1, ![R]⟩ src acc h hφ hacc (ix1 r) = ∑ k : Fin C, src (ix2 r k) :=
  (Ideal.multiReduction_add_single src acc h hφ hacc (ix1 r)).trans
    (Finset.sum_congr rfl fun k _ => congrArg src (lift_row h r k))

/-- A kernel's maximum over the second axis, at row `r`: folded from the accumulator's value. -/
theorem rowMax_kernel (src : FVec Ideal ⟨2, ![R, C]⟩ .f32) (acc : BitVec 32)
    (h : (⟨2, ![R, C]⟩ : Shape).Reduces [1] (⟨1, ![R]⟩ : Shape)) (hφ : FKind.Formats .f32)
    (hacc : acc = FKind.maximumf.neutral .f32 hφ) (r : Fin R) :
    multiReduction .maximumf [1] ⟨1, ![R]⟩ src acc h hφ hacc (ix1 r)
      = (Finset.univ : Finset (Fin C)).fold max (Ideal.ofBits .f32 acc) (fun k => src (ix2 r k)) := by
  refine (Ideal.multiReduction_maximumf_single src acc h hφ hacc (ix1 r)).trans ?_
  have hf : (src ∘ h.lift (ix1 r)) = fun k : Fin C => src (ix2 r k) := funext fun k => congrArg src (lift_row h r k)
  exact congrArg (fun f => Finset.fold max (Ideal.ofBits .f32 acc) f (Finset.univ : Finset (Fin C))) hf

/-- The host's reduce with a maximum body over the second axis, at row `r`: folded from the initial value. -/
theorem rowMax_host (x : FVec Ideal ⟨2, ![R, C]⟩ .f32) (init : (⟨0, ![]⟩ : Shape).Idx → EReal)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (r : Fin R) :
    Host.reduce (FloatOps.maximumf (F := Ideal) (φ := .f32)) x init h' hu (ix1 r)
      = (Finset.univ : Finset (Fin C)).fold max (init (Shape.Idx.first hu)) (fun k => x (ix2 r k)) := by
  rw [Host.reduce_eq_fold_single (FloatOps.maximumf (F := Ideal) (φ := .f32)) x init h' h hu]
  have hf : (x ∘ h.lift (ix1 r)) = fun k : Fin C => x (ix2 r k) := funext fun k => congrArg x (lift_row h r k)
  exact congrArg (fun f => Finset.fold max (init (Shape.Idx.first hu)) f (Finset.univ : Finset (Fin C))) hf

/-- The f32 pattern of minus infinity denotes the bottom element. -/
theorem ofBits_neg_inf : Ideal.ofBits .f32 0xFF800000#32 = ⊥ := by simp [Ideal.ofBits, Ideal.ieee]

end Cert.LibRowReduce

end
-- ==== Proof.LibColumn.lean ====
/-
  Column-shaped layout operations read at an index given by coordinates, for any element type and any extents.

  A length-a vector reshaped to an a×1 column reads at (i, 0) the vector's entry i; an a×1 column reshaped to a 1×a row
  reads at (0, i) the column's entry (i, 0) (both keep the row-major order); and an a×1 column repeated along b columns
  reads at (p, c) the column's entry (p, 0).
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A length-`a` vector cast to an `a × 1` column reads, at `(i, 0)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a `1 × a` row reads, at `(0, i)`, the column's entry `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `a × 1` column repeated along `b` columns reads, at `(p, c)`, the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelIdealPay.lean ====
/-
  The two kernels' stored values read at an index, over the extended reals.

  On a tile of 64 rows against all 8192 rows: the matrix unit's product at (r, j) is Σ_k a (r, k) · b (j, k) (both
  operands contracted along their second axis); the clamped distance at (r, j) is
  √ max (qr (r, 0) − 2 · that + qc (0, j), ε). The first kernel stores, at row r, the sum over j of exp (1 − distance)
  over the pairs whose labels differ. The second kernel stores, at row r, the sum over j of
  max (log (sr (r, 0) + sc (0, j)) + distance, 0)² over the pairs whose labels are equal, and the number of such pairs.
-/
import proofs.«127788_j44169443672248_1_alg».proof.Proof.Gen.KernelIdeal.Skeleton
import proofs.«127788_j44169443672248_1_alg».proof.Proof.Spec
import proofs.«127788_j44169443672248_1_alg».proof.Proof.LibRowReduce
import proofs.«127788_j44169443672248_1_alg».proof.Proof.LibColumn
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Pay

open Idealize.ShloMosaic Idealize.ShloMosaic.ValueIdx Cert.KernelIdeal Cert.KernelIdeal.Gen Cert.Lifted Cert.LibColumn Cert.LibRowReduce

/-- The matrix unit's product of a 64-row tile with all 8192 rows, both contracted along the feature axis. -/
theorem gram_tile (a : FVec Ideal S64x128 .bf16) (b : FVec Ideal S8192x128 .bf16) (r : Fin 64) (j : Fin 8192) :
    matmul (F := Ideal) dot_S64x128_S8192x128_S64x8192_1_1_0_0_n_n none a b (constant S64x8192 .f32 0x00000000#32) (ix2 r j)
      = ∑ k : Fin 128, a (ix2 r k) * b (ix2 j k) := by
  show FloatOps.matmul dot_S64x128_S8192x128_S64x8192_1_1_0_0_n_n none a b (constant S64x8192 .f32 0x00000000#32) (ix2 r j) = _
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 r j) ((contrEquiv1 dot_S64x128_S8192x128_S64x8192_1_1_0_0_n_n 128 rfl rfl).symm k) = ix2 r k :=
    funext fun ax => Fin.ext (by
      match ax with
      | ⟨0, _⟩ =>
        show (dot_S64x128_S8192x128_S64x8192_1_1_0_0_n_n.lhsIdx (ix2 r j) _ 0).val = r.val
        unfold DotDims.lhsIdx
        rw [dif_neg (show ¬(0 : Fin S64x128.rank) ∈ dot_S64x128_S8192x128_S64x8192_1_1_0_0_n_n.lhsBatch by decide),
          dif_pos (show (0 : Fin S64x128.rank) ∈ dot_S64x128_S8192x128_S64x8192_1_1_0_0_n_n.lhsNonContracting by decide)]
        rfl
      | ⟨1, _⟩ => exact (dot_S64x128_S8192x128_S64x8192_1_1_0_0_n_n.lhsIdx_val_of_single rfl _ _).trans hk)
  have er : dot_S64x128_S8192x128_S64x8192_1_1_0_0_n_n.rhsIdx (ix2 r j) ((contrEquiv1 dot_S64x128_S8192x128_S64x8192_1_1_0_0_n_n 128 rfl rfl).symm k) = ix2 j k :=
    funext fun ax => Fin.ext (by
      match ax with
      | ⟨0, _⟩ =>
        show (dot_S64x128_S8192x128_S64x8192_1_1_0_0_n_n.rhsIdx (ix2 r j) _ 0).val = j.val
        unfold DotDims.rhsIdx
        rw [dif_neg (show ¬(0 : Fin S8192x128.rank) ∈ dot_S64x128_S8192x128_S64x8192_1_1_0_0_n_n.rhsBatch by decide),
          dif_pos (show (0 : Fin S8192x128.rank) ∈ dot_S64x128_S8192x128_S64x8192_1_1_0_0_n_n.rhsNonContracting by decide)]
        rfl
      | ⟨1, _⟩ => exact (dot_S64x128_S8192x128_S64x8192_1_1_0_0_n_n.rhsIdx_val_of_single rfl _ _).trans hk)
  rw [el, er]

/-- The clamped distance of the tile's row `r` and row `j`, from the tile, all rows, and the squared norms as a column and a row. -/
def distTile (a : S64x128.Idx → EReal) (b : S8192x128.Idx → EReal) (qr : S64x1.Idx → EReal) (qc : S1x8192.Idx → EReal)
    (r : Fin 64) (j : Fin 8192) : EReal :=
  Ideal.sqrt (max (qr (ix2 r (0 : Fin 1)) - twoL * (∑ k : Fin 128, a (ix2 r k) * b (ix2 j k)) + qc (ix2 (0 : Fin 1) j)) epsL)

/-- One where the two labels are equal, zero where they differ — as the kernels compute it: the comparison's bit widened
    to a word and converted, signed, to a float. -/
theorem same_word (x y : BitVec 32) :
    FloatOps.sitofp (F := Ideal) .f32 ((IntOp.cmpi .eq x y).setWidth 32) = if x = y then (1 : EReal) else 0 := by
  show ((((BitVec.setWidth 32 (BitVec.ofBool (x == y))).toInt : ℤ) : ℝ) : EReal) = _
  by_cases h : x = y
  · have hb : (x == y) = true := by rw [h]; exact beq_self_eq_true y
    have e1 : (BitVec.setWidth 32 (BitVec.ofBool true)).toInt = 1 := by decide
    rw [hb, if_pos h, e1]; simp
  · have hb : (x == y) = false := beq_eq_false_iff_ne.mpr h
    have e0 : (BitVec.setWidth 32 (BitVec.ofBool false)).toInt = 0 := by decide
    rw [hb, if_neg h, e0]; simp

/-- Zero where the two labels are equal, one where they differ. -/
theorem differ_word (x y : BitVec 32) :
    FloatOps.sitofp (F := Ideal) .f32 ((IntOp.cmpi .ne x y).setWidth 32) = if x = y then (0 : EReal) else 1 := by
  show ((((BitVec.setWidth 32 (BitVec.ofBool (x != y))).toInt : ℤ) : ℝ) : EReal) = _
  by_cases h : x = y
  · have hb : (x != y) = false := by rw [h]; simp
    have e0 : (BitVec.setWidth 32 (BitVec.ofBool false)).toInt = 0 := by decide
    rw [hb, if_pos h, e0]; simp
  · have hb : (x != y) = true := by simp [bne, beq_eq_false_iff_ne.mpr h]
    have e1 : (BitVec.setWidth 32 (BitVec.ofBool true)).toInt = 1 := by decide
    rw [hb, if_neg h, e1]; simp

theorem exp_at {s : Shape} (v : FVec Ideal s .f32) (i : s.Idx) : exp v i = Ideal.exp (v i) := rfl
theorem sqrt_at {s : Shape} (v : FVec Ideal s .f32) (i : s.Idx) : sqrt v i = Ideal.sqrt (v i) := rfl
theorem log_at {s : Shape} (v : FVec Ideal s .f32) (i : s.Idx) : log v i = Ideal.log (v i) := rfl
theorem cmpi_at {s : Shape} {w : Nat} (p : CmpIPredicate) (x y : IVec s w) (i : s.Idx) : cmpi p x y i = IntOp.cmpi p (x i) (y i) := rfl

/-- The first kernel's stored column at row `r`: the sum over all rows `j` with a different label of exp (1 − distance). -/
theorem pay_s_apply (a : Vec Ideal S64x128 .bf16) (b : Vec Ideal S8192x128 .bf16) (qr : Vec Ideal S64x1 .f32) (qc : Vec Ideal S1x8192 .f32)
    (lr : Vec Ideal S64x1 .i32) (lc : Vec Ideal S1x8192 .i32) (r : Fin 64) (z : Fin 1) :
    k0_pay1 (F := Ideal) a b qr qc lr lc (ix2 r z)
      = ∑ j : Fin 8192, Ideal.exp (oneL - distTile a b qr qc r j)
          * (if lr (ix2 r (0 : Fin 1)) = lc (ix2 (0 : Fin 1) j) then (0 : EReal) else 1) := by
  unfold k0_pay1
  try dsimp only
  refine (shapeCast_a_a1_apply _ _ r z).trans ?_
  refine (rowSum_kernel _ _ _ _ _ r).trans ?_
  refine Finset.sum_congr rfl fun j _ => ?_
  simp only [mulf_apply, exp_at, subf_apply, broadcast_apply, sqrt_at, maximumf_apply, addf_apply, shapeCast_self,
    broadcastTo_a1_ab_apply, broadcastTo_1b_ab_apply, gram_tile, sitofp_apply, extui_apply, cmpi_at, differ_word]
  rfl

/-- The second kernel's equal-label indicator at (r, j). -/
theorem pay_same_apply (lr : Vec Ideal S64x1 .i32) (lc : Vec Ideal S1x8192 .i32) (r : Fin 64) (j : Fin 8192) :
    k1_pay3 (F := Ideal) lr lc (ix2 r j) = if lr (ix2 r (0 : Fin 1)) = lc (ix2 (0 : Fin 1) j) then (1 : EReal) else 0 := by
  unfold k1_pay3
  try dsimp only
  simp only [sitofp_apply, extui_apply, cmpi_at, shapeCast_self, broadcastTo_a1_ab_apply, broadcastTo_1b_ab_apply, same_word]

/-- The second kernel's hinged term squared at (r, j): with h = max (log (sr (r, 0) + sc (0, j)) + distance, 0), h · h. -/
theorem pay_hinge_apply (a : Vec Ideal S64x128 .bf16) (b : Vec Ideal S8192x128 .bf16) (qr : Vec Ideal S64x1 .f32) (qc : Vec Ideal S1x8192 .f32)
    (sr : Vec Ideal S64x1 .f32) (sc : Vec Ideal S1x8192 .f32) (r : Fin 64) (j : Fin 8192) :
    k1_pay4 (F := Ideal) a b qr qc sr sc (ix2 r j)
      = max (Ideal.log (sr (ix2 r (0 : Fin 1)) + sc (ix2 (0 : Fin 1) j)) + distTile a b qr qc r j) zeroL
        * max (Ideal.log (sr (ix2 r (0 : Fin 1)) + sc (ix2 (0 : Fin 1) j)) + distTile a b qr qc r j) zeroL := by
  unfold k1_pay4
  try dsimp only
  simp only [mulf_apply, maximumf_apply, addf_apply, log_at, sqrt_at, subf_apply, broadcast_apply, shapeCast_self,
    broadcastTo_a1_ab_apply, broadcastTo_1b_ab_apply, gram_tile]
  rfl

/-- The second kernel's first stored column at row `r`: the sum over `j` of the hinged squares times the indicator. -/
theorem pay_loss_apply (v26 v38 : FVec Ideal S64x8192 .f32) (r : Fin 64) (z : Fin 1) :
    k1_pay1 (F := Ideal) v26 v38 (ix2 r z) = ∑ j : Fin 8192, v38 (ix2 r j) * v26 (ix2 r j) := by
  unfold k1_pay1
  refine (shapeCast_a_a1_apply _ _ r z).trans ?_
  refine (rowSum_kernel _ _ _ _ _ r).trans ?_
  rfl

/-- The second kernel's second stored column at row `r`: the sum over `j` of the indicator. -/
theorem pay_cnt_apply (v26 : FVec Ideal S64x8192 .f32) (r : Fin 64) (z : Fin 1) :
    k1_pay2 (F := Ideal) v26 (ix2 r z) = ∑ j : Fin 8192, v26 (ix2 r j) := by
  unfold k1_pay2
  refine (shapeCast_a_a1_apply _ _ r z).trans ?_
  exact rowSum_kernel _ _ _ _ _ r

end Cert.KernelIdeal.Pay

end
-- ==== Proof.RefAlgebra.lean ====
/-
  The loss of Spec.lean in the arrangement of the reference: the sum of the row sums is one double sum over all pairs,
  the zero literal added in front of each row sum is the extended real zero, and a choice between a value and the zero
  literal on the equal-label condition is the product of the value with the 0/1 indicator. Every step is an identity
  of the extended reals as a commutative monoid with zero (x · 1 = x, x · 0 = 0, 0 + x = x), so none needs finiteness.
-/
import proofs.«127788_j44169443672248_1_alg».proof.Proof.Spec
import Idealize.ShloMosaic.PureOps.Ideal.Laws

noncomputable section

namespace Cert.Lifted

open Idealize.ShloMosaic

variable (x : Fin 8192 → Fin 128 → EReal) (l : Fin 8192 → BitVec 32)

/-- The zero literal is the extended real zero. -/
theorem zeroL_eq : zeroL = 0 := Ideal.ofBits_zero_f32

/-- A choice on the equal-label condition between a value and the zero literal is the value times the indicator. -/
theorem ite_same (i j : Fin 8192) (h : EReal) : (if l i = l j then h else zeroL) = h * same l i j := by
  unfold same
  by_cases e : l i = l j
  · rw [if_pos e, if_pos e, mul_one]
  · rw [if_neg e, if_neg e, mul_zero, zeroL_eq]

/-- The loss with the row sums opened: one double sum of the hinged squares over the equal-label pairs, over twice the
    double sum of the indicators. -/
theorem loss_eq_pairs :
    loss x l = Ideal.div (zeroL + ∑ i : Fin 8192, ∑ j : Fin 8192, hinge2 x l i j * same l i j)
      (twoL * ∑ i : Fin 8192, ∑ j : Fin 8192, same l i j) := by
  unfold loss rowLoss rowCnt
  simp only [zeroL_eq, zero_add]

end Cert.Lifted

end
-- ==== Proof.KernelIdealOut0.lean ====
/-
  Region 0's output column as one function of the features and the labels.

  At grid point t the first kernel is handed rows 64 t … 64 t + 63 of the features, of the squared norms and of the
  labels (the windows that move with the grid) and every row of each (the windows held in place); it writes back rows
  64 t … 64 t + 63 of the output column. The 128 blocks tile the column, so it ends holding, at row i, the sum over
  the differently labelled rows j of exp (1 − d i j).
-/
import proofs.«127788_j44169443672248_1_alg».proof.Proof.KernelIdealDat
import proofs.«127788_j44169443672248_1_alg».proof.Proof.KernelIdealPay
import proofs.«127788_j44169443672248_1_alg».proof.Proof.RefAlgebra
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.Pay Cert.Lifted

theorem hz : (![0, 0] : Fin 2 → Nat) = fun _ => 0 := funext fun a => by fin_cases a <;> rfl

/-- Row `r` of the `t`-th tile of 64 rows. -/
def row (t : ℕ) (ht : t < 128) (r : Fin 64) : Fin 8192 := ⟨t * 64 + r.val, by have := r.isLt; omega⟩

theorem tlt0 (t : Fin cfg0.N) : t.val < 128 := lt_of_lt_of_eq t.isLt N_0
theorem tlt1 (t : Fin cfg1.N) : t.val < 128 := lt_of_lt_of_eq t.isLt N_1

/-- The printed index maps over the grid: a window that moves with the grid is at block (t, 0), one held in place at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section
variable (V : (c : Dev nD) → (b : Ref sig .tc) → Buf (Elt Ideal) ((c : Thread nD τ).loc b))

/-! ## The windows' blocks read at coordinates -/

theorem blk0_0 (c : Dev nD) (t : Fin cfg0.N) (r : Fin 64) (k : Fin 128) :
    (blk0 V c 0 t : S64x128.Idx → EReal) (ix2 r k) = (V c main_v2 : S8192x128.Idx → EReal) (ix2 (row t.val (tlt0 t) r) k) := by
  obtain ⟨a0, b0, a1, b1, a2, b2, a3, b3, a4, b4, a5, b5, a6, b6⟩ := idx0 t
  show (V c main_v2 : S8192x128.Idx → EReal) (((cfg0.win 0).blk t).view.emb (ix2 r k)) = _
  refine congrArg (V c main_v2 : S8192x128.Idx → EReal) (funext fun ax => Fin.ext ?_)
  match ax with
  | ⟨0, _⟩ => show win0_0.index t (0 : Fin 2) * 64 + 1 * r.val = t.val * 64 + r.val; rw [a0]; omega
  | ⟨1, _⟩ => show win0_0.index t (1 : Fin 2) * 128 + 1 * k.val = k.val; rw [b0]; omega

theorem blk0_1 (c : Dev nD) (t : Fin cfg0.N) (j : Fin 8192) (k : Fin 128) :
    (blk0 V c 1 t : S8192x128.Idx → EReal) (ix2 j k) = (V c main_v2 : S8192x128.Idx → EReal) (ix2 j k) := by
  obtain ⟨a0, b0, a1, b1, a2, b2, a3, b3, a4, b4, a5, b5, a6, b6⟩ := idx0 t
  show (V c main_v2 : S8192x128.Idx → EReal) (((cfg0.win 1).blk t).view.emb (ix2 j k)) = _
  refine congrArg (V c main_v2 : S8192x128.Idx → EReal) (funext fun ax => Fin.ext ?_)
  match ax with
  | ⟨0, _⟩ => show win0_1.index t (0 : Fin 2) * 8192 + 1 * j.val = j.val; rw [a1]; omega
  | ⟨1, _⟩ => show win0_1.index t (1 : Fin 2) * 128 + 1 * k.val = k.val; rw [b1]; omega

theorem blk0_2 (c : Dev nD) (t : Fin cfg0.N) (r : Fin 64) (z : Fin 1) :
    (blk0 V c 2 t : S64x1.Idx → EReal) (ix2 r z) = (V c main_v3 : S8192x1.Idx → EReal) (ix2 (row t.val (tlt0 t) r) (0 : Fin 1)) := by
  obtain ⟨a0, b0, a1, b1, a2, b2, a3, b3, a4, b4, a5, b5, a6, b6⟩ := idx0 t
  show (V c main_v3 : S8192x1.Idx → EReal) (((cfg0.win 2).blk t).view.emb (ix2 r z)) = _
  refine congrArg (V c main_v3 : S8192x1.Idx → EReal) (funext fun ax => Fin.ext ?_)
  have hz : z.val = 0 := by omega
  match ax with
  | ⟨0, _⟩ => show win0_2.index t (0 : Fin 2) * 64 + 1 * r.val = t.val * 64 + r.val; rw [a2]; omega
  | ⟨1, _⟩ => show win0_2.index t (1 : Fin 2) * 1 + 1 * z.val = 0; rw [b2]; omega

theorem blk0_3 (c : Dev nD) (t : Fin cfg0.N) (z : Fin 1) (j : Fin 8192) :
    (blk0 V c 3 t : S1x8192.Idx → EReal) (ix2 z j) = (V c main_v4 : S1x8192.Idx → EReal) (ix2 (0 : Fin 1) j) := by
  obtain ⟨a0, b0, a1, b1, a2, b2, a3, b3, a4, b4, a5, b5, a6, b6⟩ := idx0 t
  show (V c main_v4 : S1x8192.Idx → EReal) (((cfg0.win 3).blk t).view.emb (ix2 z j)) = _
  refine congrArg (V c main_v4 : S1x8192.Idx → EReal) (funext fun ax => Fin.ext ?_)
  have hz : z.val = 0 := by omega
  match ax with
  | ⟨0, _⟩ => show win0_3.index t (0 : Fin 2) * 1 + 1 * z.val = 0; rw [a3]; omega
  | ⟨1, _⟩ => show win0_3.index t (1 : Fin 2) * 8192 + 1 * j.val = j.val; rw [b3]; omega

theorem blk0_4 (c : Dev nD) (t : Fin cfg0.N) (r : Fin 64) (z : Fin 1) :
    (blk0 V c 4 t : S64x1.Idx → BitVec 32) (ix2 r z) = (V c main_v5 : S8192x1.Idx → BitVec 32) (ix2 (row t.val (tlt0 t) r) (0 : Fin 1)) := by
  obtain ⟨a0, b0, a1, b1, a2, b2, a3, b3, a4, b4, a5, b5, a6, b6⟩ := idx0 t
  show (V c main_v5 : S8192x1.Idx → BitVec 32) (((cfg0.win 4).blk t).view.emb (ix2 r z)) = _
  refine congrArg (V c main_v5 : S8192x1.Idx → BitVec 32) (funext fun ax => Fin.ext ?_)
  have hz : z.val = 0 := by omega
  match ax with
  | ⟨0, _⟩ => show win0_4.index t (0 : Fin 2) * 64 + 1 * r.val = t.val * 64 + r.val; rw [a4]; omega
  | ⟨1, _⟩ => show win0_4.index t (1 : Fin 2) * 1 + 1 * z.val = 0; rw [b4]; omega

theorem blk0_5 (c : Dev nD) (t : Fin cfg0.N) (z : Fin 1) (j : Fin 8192) :
    (blk0 V c 5 t : S1x8192.Idx → BitVec 32) (ix2 z j) = (V c main_v6 : S1x8192.Idx → BitVec 32) (ix2 (0 : Fin 1) j) := by
  obtain ⟨a0, b0, a1, b1, a2, b2, a3, b3, a4, b4, a5, b5, a6, b6⟩ := idx0 t
  show (V c main_v6 : S1x8192.Idx → BitVec 32) (((cfg0.win 5).blk t).view.emb (ix2 z j)) = _
  refine congrArg (V c main_v6 : S1x8192.Idx → BitVec 32) (funext fun ax => Fin.ext ?_)
  have hz : z.val = 0 := by omega
  match ax with
  | ⟨0, _⟩ => show win0_5.index t (0 : Fin 2) * 1 + 1 * z.val = 0; rw [a5]; omega
  | ⟨1, _⟩ => show win0_5.index t (1 : Fin 2) * 8192 + 1 * j.val = j.val; rw [b5]; omega

/-! ## The output column -/

/-- An index of the output column is in point `t`'s block iff its row is among the tile's 64 rows. -/
theorem mem_blk0_6 (t : Fin cfg0.N) (i : S8192x1.Idx) :
    i ∈ ((cfg0.win 6).blk t).view.set ↔ ∀ a : Fin 2, win0_6.index t a * S64x1.size a ≤ (i a).val ∧ (i a).val < win0_6.index t a * S64x1.size a + S64x1.size a := by
  show i ∈ ((View.whole main_v7).slice (win0_6.rect t)).set ↔ _
  rw [View.set_slice_whole, Rect.mem_set_unit]
  exact Iff.rfl

/-- Every row of the output column is in some point's block: row `i` in the block of point `i / 64`. -/
theorem cover0_6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 128 := N_0
  refine ⟨⟨(i 0).val / 64, by rw [hN]; omega⟩, flush0_6 _, ?_⟩
  rw [mem_blk0_6]
  obtain ⟨a0, b0, a1, b1, a2, b2, a3, b3, a4, b4, a5, b5, a6, b6⟩ := idx0 ⟨(i 0).val / 64, by rw [hN]; omega⟩
  intro a
  match a with
  | ⟨0, _⟩ =>
    show win0_6.index _ (0 : Fin 2) * 64 ≤ (i 0).val ∧ (i 0).val < win0_6.index _ (0 : Fin 2) * 64 + 64
    rw [a6]
    show (i 0).val / 64 * 64 ≤ (i 0).val ∧ (i 0).val < (i 0).val / 64 * 64 + 64
    omega
  | ⟨1, _⟩ =>
    show win0_6.index _ (1 : Fin 2) * 1 ≤ (i 1).val ∧ (i 1).val < win0_6.index _ (1 : Fin 2) * 1 + 1
    rw [b6]
    omega

/-- REGION 0's OUTPUT: if the entry arrays hold the features, their squared norms (as a column and as a row) and the
    labels (likewise), the output column ends holding, at row `i`, the sum over the differently labelled `j` of
    exp (1 − d i j). -/
theorem out0_value (c : Dev nD) (x : Fin 8192 → Fin 128 → EReal) (l : Fin 8192 → BitVec 32)
    (h2 : ∀ (i : Fin 8192) (k : Fin 128), (V c main_v2 : S8192x128.Idx → EReal) (ix2 i k) = x i k)
    (h3 : ∀ (i : Fin 8192) (z : Fin 1), (V c main_v3 : S8192x1.Idx → EReal) (ix2 i z) = sqn x i)
    (h4 : ∀ (z : Fin 1) (j : Fin 8192), (V c main_v4 : S1x8192.Idx → EReal) (ix2 z j) = sqn x j)
    (h5 : ∀ (i : Fin 8192) (z : Fin 1), (V c main_v5 : S8192x1.Idx → BitVec 32) (ix2 i z) = l i)
    (h6 : ∀ (z : Fin 1) (j : Fin 8192), (V c main_v6 : S1x8192.Idx → BitVec 32) (ix2 z j) = l j) :
    (dat0 V c).arrAt 6 cfg0.N = (fun i : S8192x1.Idx => negSum x l ⟨(i 0).val, idx2_lt0 i⟩ : S8192x1.Idx → EReal) := by
  refine (dat0 V c).arrAt_eq_of_cover 6 _ (fun t _ => ?_) (fun i => cover0_6 i)
  show (cfg0.win 6).cut (grid0.coords t) ((dat0 V c).after 6 t) = _
  rw [after0_6]
  unfold sCol
  rw [View.canon_unit_zero hz]
  simp only [View.ld_unit_zero (S := S64x128) hz, View.ld_unit_zero (S := S8192x128) hz, View.ld_unit_zero (S := S64x1) hz,
    View.ld_unit_zero (S := S1x8192) hz]
  funext y
  obtain ⟨r, z, rfl⟩ : ∃ (r : Fin 64) (z : Fin 1), y = ix2 r z := ⟨y 0, y 1, eq_ix2 y⟩
  obtain ⟨a0, b0, a1, b1, a2, b2, a3, b3, a4, b4, a5, b5, a6, b6⟩ := idx0 t
  have hrow : (⟨((((cfg0.win 6).blk t).view.emb (ix2 r z)) 0).val, idx2_lt0 _⟩ : Fin 8192) = row t.val (tlt0 t) r :=
    Fin.ext (by show win0_6.index t (0 : Fin 2) * 64 + 1 * r.val = t.val * 64 + r.val; rw [a6]; omega)
  show k0_pay1 (F := Ideal) (blk0 V c 0 t) (blk0 V c 1 t) (blk0 V c 2 t) (blk0 V c 3 t) (blk0 V c 4 t) (blk0 V c 5 t) (ix2 r z)
    = negSum x l ⟨((((cfg0.win 6).blk t).view.emb (ix2 r z)) 0).val, idx2_lt0 _⟩
  rw [hrow, pay_s_apply]
  unfold negSum
  rw [zeroL_eq, zero_add]
  refine Finset.sum_congr rfl fun j _ => ?_
  simp only [distTile, blk0_0 V, blk0_1 V, blk0_2 V, blk0_3 V, blk0_4 V, blk0_5 V, h2, h3, h4, h5, h6]
  rfl

end

end Cert.KernelIdeal.Val

end
-- ==== Proof.KernelIdealOut1.lean ====
/-
  Region 1's two output columns as functions of the features and the labels.

  At grid point t the second kernel is handed rows 64 t … 64 t + 63 of the features, of the squared norms, of the labels
  and of the first kernel's sums, and every row of each; it writes back rows 64 t … 64 t + 63 of its two output columns.
  The 128 blocks tile each column, so the first ends holding, at row i, the sum over the equally labelled rows j of
  max (log (S i + S j) + d i j, 0)², and the second the number of such rows.
-/
import proofs.«127788_j44169443672248_1_alg».proof.Proof.KernelIdealOut0

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr Cert.KernelIdeal.Pay Cert.Lifted

/-- The printed index maps over the grid: a window that moves with the grid is at block (t, 0), one held in place at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

section
variable (V : (c : Dev nD) → (b : Ref sig .tc) → Buf (Elt Ideal) ((c : Thread nD τ).loc b))

/-! ## The windows' blocks read at coordinates -/

theorem blk1_0 (c : Dev nD) (t : Fin cfg1.N) (r : Fin 64) (k : Fin 128) :
    (blk1 V c 0 t : S64x128.Idx → EReal) (ix2 r k) = (V c main_v2 : S8192x128.Idx → EReal) (ix2 (row t.val (tlt1 t) r) k) := by
  obtain ⟨a0, b0, a1, b1, a2, b2, a3, b3, a4, b4, a5, b5, a6, b6, a7, b7, a8, b8, a9, b9⟩ := idx1 t
  show (V c main_v2 : S8192x128.Idx → EReal) (((cfg1.win 0).blk t).view.emb (ix2 r k)) = _
  refine congrArg (V c main_v2 : S8192x128.Idx → EReal) (funext fun ax => Fin.ext ?_)
  match ax with
  | ⟨0, _⟩ => show win1_0.index t (0 : Fin 2) * 64 + 1 * r.val = t.val * 64 + r.val; rw [a0]; omega
  | ⟨1, _⟩ => show win1_0.index t (1 : Fin 2) * 128 + 1 * k.val = k.val; rw [b0]; omega

theorem blk1_1 (c : Dev nD) (t : Fin cfg1.N) (j : Fin 8192) (k : Fin 128) :
    (blk1 V c 1 t : S8192x128.Idx → EReal) (ix2 j k) = (V c main_v2 : S8192x128.Idx → EReal) (ix2 j k) := by
  obtain ⟨a0, b0, a1, b1, a2, b2, a3, b3, a4, b4, a5, b5, a6, b6, a7, b7, a8, b8, a9, b9⟩ := idx1 t
  show (V c main_v2 : S8192x128.Idx → EReal) (((cfg1.win 1).blk t).view.emb (ix2 j k)) = _
  refine congrArg (V c main_v2 : S8192x128.Idx → EReal) (funext fun ax => Fin.ext ?_)
  match ax with
  | ⟨0, _⟩ => show win1_1.index t (0 : Fin 2) * 8192 + 1 * j.val = j.val; rw [a1]; omega
  | ⟨1, _⟩ => show win1_1.index t (1 : Fin 2) * 128 + 1 * k.val = k.val; rw [b1]; omega

theorem blk1_2 (c : Dev nD) (t : Fin cfg1.N) (r : Fin 64) (z : Fin 1) :
    (blk1 V c 2 t : S64x1.Idx → EReal) (ix2 r z) = (V c main_v3 : S8192x1.Idx → EReal) (ix2 (row t.val (tlt1 t) r) (0 : Fin 1)) := by
  obtain ⟨a0, b0, a1, b1, a2, b2, a3, b3, a4, b4, a5, b5, a6, b6, a7, b7, a8, b8, a9, b9⟩ := idx1 t
  show (V c main_v3 : S8192x1.Idx → EReal) (((cfg1.win 2).blk t).view.emb (ix2 r z)) = _
  refine congrArg (V c main_v3 : S8192x1.Idx → EReal) (funext fun ax => Fin.ext ?_)
  have hz : z.val = 0 := by omega
  match ax with
  | ⟨0, _⟩ => show win1_2.index t (0 : Fin 2) * 64 + 1 * r.val = t.val * 64 + r.val; rw [a2]; omega
  | ⟨1, _⟩ => show win1_2.index t (1 : Fin 2) * 1 + 1 * z.val = 0; rw [b2]; omega

theorem blk1_3 (c : Dev nD) (t : Fin cfg1.N) (z : Fin 1) (j : Fin 8192) :
    (blk1 V c 3 t : S1x8192.Idx → EReal) (ix2 z j) = (V c main_v4 : S1x8192.Idx → EReal) (ix2 (0 : Fin 1) j) := by
  obtain ⟨a0, b0, a1, b1, a2, b2, a3, b3, a4, b4, a5, b5, a6, b6, a7, b7, a8, b8, a9, b9⟩ := idx1 t
  show (V c main_v4 : S1x8192.Idx → EReal) (((cfg1.win 3).blk t).view.emb (ix2 z j)) = _
  refine congrArg (V c main_v4 : S1x8192.Idx → EReal) (funext fun ax => Fin.ext ?_)
  have hz : z.val = 0 := by omega
  match ax with
  | ⟨0, _⟩ => show win1_3.index t (0 : Fin 2) * 1 + 1 * z.val = 0; rw [a3]; omega
  | ⟨1, _⟩ => show win1_3.index t (1 : Fin 2) * 8192 + 1 * j.val = j.val; rw [b3]; omega

theorem blk1_4 (c : Dev nD) (t : Fin cfg1.N) (r : Fin 64) (z : Fin 1) :
    (blk1 V c 4 t : S64x1.Idx → BitVec 32) (ix2 r z) = (V c main_v5 : S8192x1.Idx → BitVec 32) (ix2 (row t.val (tlt1 t) r) (0 : Fin 1)) := by
  obtain ⟨a0, b0, a1, b1, a2, b2, a3, b3, a4, b4, a5, b5, a6, b6, a7, b7, a8, b8, a9, b9⟩ := idx1 t
  show (V c main_v5 : S8192x1.Idx → BitVec 32) (((cfg1.win 4).blk t).view.emb (ix2 r z)) = _
  refine congrArg (V c main_v5 : S8192x1.Idx → BitVec 32) (funext fun ax => Fin.ext ?_)
  have hz : z.val = 0 := by omega
  match ax with
  | ⟨0, _⟩ => show win1_4.index t (0 : Fin 2) * 64 + 1 * r.val = t.val * 64 + r.val; rw [a4]; omega
  | ⟨1, _⟩ => show win1_4.index t (1 : Fin 2) * 1 + 1 * z.val = 0; rw [b4]; omega

theorem blk1_5 (c : Dev nD) (t : Fin cfg1.N) (z : Fin 1) (j : Fin 8192) :
    (blk1 V c 5 t : S1x8192.Idx → BitVec 32) (ix2 z j) = (V c main_v6 : S1x8192.Idx → BitVec 32) (ix2 (0 : Fin 1) j) := by
  obtain ⟨a0, b0, a1, b1, a2, b2, a3, b3, a4, b4, a5, b5, a6, b6, a7, b7, a8, b8, a9, b9⟩ := idx1 t
  show (V c main_v6 : S1x8192.Idx → BitVec 32) (((cfg1.win 5).blk t).view.emb (ix2 z j)) = _
  refine congrArg (V c main_v6 : S1x8192.Idx → BitVec 32) (funext fun ax => Fin.ext ?_)
  have hz : z.val = 0 := by omega
  match ax with
  | ⟨0, _⟩ => show win1_5.index t (0 : Fin 2) * 1 + 1 * z.val = 0; rw [a5]; omega
  | ⟨1, _⟩ => show win1_5.index t (1 : Fin 2) * 8192 + 1 * j.val = j.val; rw [b5]; omega

theorem blk1_6 (c : Dev nD) (t : Fin cfg1.N) (r : Fin 64) (z : Fin 1) :
    (blk1 V c 6 t : S64x1.Idx → EReal) (ix2 r z) = (V c main_v7 : S8192x1.Idx → EReal) (ix2 (row t.val (tlt1 t) r) (0 : Fin 1)) := by
  obtain ⟨a0, b0, a1, b1, a2, b2, a3, b3, a4, b4, a5, b5, a6, b6, a7, b7, a8, b8, a9, b9⟩ := idx1 t
  show (V c main_v7 : S8192x1.Idx → EReal) (((cfg1.win 6).blk t).view.emb (ix2 r z)) = _
  refine congrArg (V c main_v7 : S8192x1.Idx → EReal) (funext fun ax => Fin.ext ?_)
  have hz : z.val = 0 := by omega
  match ax with
  | ⟨0, _⟩ => show win1_6.index t (0 : Fin 2) * 64 + 1 * r.val = t.val * 64 + r.val; rw [a6]; omega
  | ⟨1, _⟩ => show win1_6.index t (1 : Fin 2) * 1 + 1 * z.val = 0; rw [b6]; omega

theorem blk1_7 (c : Dev nD) (t : Fin cfg1.N) (z : Fin 1) (j : Fin 8192) :
    (blk1 V c 7 t : S1x8192.Idx → EReal) (ix2 z j) = (V c main_v8 : S1x8192.Idx → EReal) (ix2 (0 : Fin 1) j) := by
  obtain ⟨a0, b0, a1, b1, a2, b2, a3, b3, a4, b4, a5, b5, a6, b6, a7, b7, a8, b8, a9, b9⟩ := idx1 t
  show (V c main_v8 : S1x8192.Idx → EReal) (((cfg1.win 7).blk t).view.emb (ix2 z j)) = _
  refine congrArg (V c main_v8 : S1x8192.Idx → EReal) (funext fun ax => Fin.ext ?_)
  have hz : z.val = 0 := by omega
  match ax with
  | ⟨0, _⟩ => show win1_7.index t (0 : Fin 2) * 1 + 1 * z.val = 0; rw [a7]; omega
  | ⟨1, _⟩ => show win1_7.index t (1 : Fin 2) * 8192 + 1 * j.val = j.val; rw [b7]; omega

/-! ## The output columns -/

/-- An index of the output column is in point `t`'s block iff its row is among the tile's 64 rows. -/
theorem mem_blk1_8 (t : Fin cfg1.N) (i : S8192x1.Idx) :
    i ∈ ((cfg1.win 8).blk t).view.set ↔ ∀ a : Fin 2, win1_8.index t a * S64x1.size a ≤ (i a).val ∧ (i a).val < win1_8.index t a * S64x1.size a + S64x1.size a := by
  show i ∈ ((View.whole main_v9_0).slice (win1_8.rect t)).set ↔ _
  rw [View.set_slice_whole, Rect.mem_set_unit]
  exact Iff.rfl

/-- Every row of the output column is in some point's block: row `i` in the block of point `i / 64`. -/
theorem cover1_8 (i : S8192x1.Idx) : ∃ t : Fin cfg1.N, (cfg1.win 8).flush t = true ∧ i ∈ ((cfg1.win 8).blk t).view.set := by
  have hi0 : (i 0).val < 8192 := idx2_lt0 i
  have hi1 : (i 1).val < 1 := idx2_lt1 i
  have hN : cfg1.N = 128 := N_1
  refine ⟨⟨(i 0).val / 64, by rw [hN]; omega⟩, flush1_8 _, ?_⟩
  rw [mem_blk1_8]
  obtain ⟨a0, b0, a1, b1, a2, b2, a3, b3, a4, b4, a5, b5, a6, b6, a7, b7, a8, b8, a9, b9⟩ := idx1 ⟨(i 0).val / 64, by rw [hN]; omega⟩
  intro a
  match a with
  | ⟨0, _⟩ =>
    show win1_8.index _ (0 : Fin 2) * 64 ≤ (i 0).val ∧ (i 0).val < win1_8.index _ (0 : Fin 2) * 64 + 64
    rw [a8]
    show (i 0).val / 64 * 64 ≤ (i 0).val ∧ (i 0).val < (i 0).val / 64 * 64 + 64
    omega
  | ⟨1, _⟩ =>
    show win1_8.index _ (1 : Fin 2) * 1 ≤ (i 1).val ∧ (i 1).val < win1_8.index _ (1 : Fin 2) * 1 + 1
    rw [b8]
    omega

/-- An index of the output column is in point `t`'s block iff its row is among the tile's 64 rows. -/
theorem mem_blk1_9 (t : Fin cfg1.N) (i : S8192x1.Idx) :
    i ∈ ((cfg1.win 9).blk t).view.set ↔ ∀ a : Fin 2, win1_9.index t a * S64x1.size a ≤ (i a).val ∧ (i a).val < win1_9.index t a * S64x1.size a + S64x1.size a := by
  show i ∈ ((View.whole main_v9_1).slice (win1_9.rect t)).set ↔ _
  rw [View.set_slice_whole, Rect.mem_set_unit]
  exact Iff.rfl

/-- Every row of the output column is in some point's block: row `i` in the block of point `i / 64`. -/
theorem cover1_9 (i : S8192x1.Idx) : ∃ t : Fin cfg1.N, (cfg1.win 9).flush t = true ∧ i ∈ ((cfg1.win 9).blk t).view.set := by
  have hi0 : (i 0).val < 8192 := idx2_lt0 i
  have hi1 : (i 1).val < 1 := idx2_lt1 i
  have hN : cfg1.N = 128 := N_1
  refine ⟨⟨(i 0).val / 64, by rw [hN]; omega⟩, flush1_9 _, ?_⟩
  rw [mem_blk1_9]
  obtain ⟨a0, b0, a1, b1, a2, b2, a3, b3, a4, b4, a5, b5, a6, b6, a7, b7, a8, b8, a9, b9⟩ := idx1 ⟨(i 0).val / 64, by rw [hN]; omega⟩
  intro a
  match a with
  | ⟨0, _⟩ =>
    show win1_9.index _ (0 : Fin 2) * 64 ≤ (i 0).val ∧ (i 0).val < win1_9.index _ (0 : Fin 2) * 64 + 64
    rw [a9]
    show (i 0).val / 64 * 64 ≤ (i 0).val ∧ (i 0).val < (i 0).val / 64 * 64 + 64
    omega
  | ⟨1, _⟩ =>
    show win1_9.index _ (1 : Fin 2) * 1 ≤ (i 1).val ∧ (i 1).val < win1_9.index _ (1 : Fin 2) * 1 + 1
    rw [b9]
    omega

/-- REGION 1's FIRST OUTPUT: if the entry arrays hold the features, their squared norms, the labels and the first
    kernel's sums (each as a column and as a row), the column ends holding, at row `i`, the sum over the equally
    labelled `j` of the hinged term squared. -/
theorem out1_loss (c : Dev nD) (x : Fin 8192 → Fin 128 → EReal) (l : Fin 8192 → BitVec 32)
    (h2 : ∀ (i : Fin 8192) (k : Fin 128), (V c main_v2 : S8192x128.Idx → EReal) (ix2 i k) = x i k)
    (h3 : ∀ (i : Fin 8192) (z : Fin 1), (V c main_v3 : S8192x1.Idx → EReal) (ix2 i z) = sqn x i)
    (h4 : ∀ (z : Fin 1) (j : Fin 8192), (V c main_v4 : S1x8192.Idx → EReal) (ix2 z j) = sqn x j)
    (h5 : ∀ (i : Fin 8192) (z : Fin 1), (V c main_v5 : S8192x1.Idx → BitVec 32) (ix2 i z) = l i)
    (h6 : ∀ (z : Fin 1) (j : Fin 8192), (V c main_v6 : S1x8192.Idx → BitVec 32) (ix2 z j) = l j)
    (h7 : ∀ (i : Fin 8192) (z : Fin 1), (V c main_v7 : S8192x1.Idx → EReal) (ix2 i z) = negSum x l i)
    (h8 : ∀ (z : Fin 1) (j : Fin 8192), (V c main_v8 : S1x8192.Idx → EReal) (ix2 z j) = negSum x l j) :
    (dat1 V c).arrAt 8 cfg1.N = (fun i : S8192x1.Idx => rowLoss x l ⟨(i 0).val, idx2_lt0 i⟩ : S8192x1.Idx → EReal) := by
  refine (dat1 V c).arrAt_eq_of_cover 8 _ (fun t _ => ?_) (fun i => cover1_8 i)
  show (cfg1.win 8).cut (grid1.coords t) ((dat1 V c).after 8 t) = _
  rw [after1_8]
  unfold lossCol
  rw [View.canon_unit_zero hz]
  simp only [View.ld_unit_zero (S := S64x128) hz, View.ld_unit_zero (S := S8192x128) hz, View.ld_unit_zero (S := S64x1) hz,
    View.ld_unit_zero (S := S1x8192) hz]
  funext y
  obtain ⟨r, z, rfl⟩ : ∃ (r : Fin 64) (z : Fin 1), y = ix2 r z := ⟨y 0, y 1, eq_ix2 y⟩
  obtain ⟨a0, b0, a1, b1, a2, b2, a3, b3, a4, b4, a5, b5, a6, b6, a7, b7, a8, b8, a9, b9⟩ := idx1 t
  have hrow : (⟨((((cfg1.win 8).blk t).view.emb (ix2 r z)) 0).val, idx2_lt0 _⟩ : Fin 8192) = row t.val (tlt1 t) r :=
    Fin.ext (by show win1_8.index t (0 : Fin 2) * 64 + 1 * r.val = t.val * 64 + r.val; rw [a8]; omega)
  show k1_pay1 (F := Ideal) (k1_pay3 (blk1 V c 4 t) (blk1 V c 5 t))
      (k1_pay4 (blk1 V c 0 t) (blk1 V c 1 t) (blk1 V c 2 t) (blk1 V c 3 t) (blk1 V c 6 t) (blk1 V c 7 t)) (ix2 r z)
    = rowLoss x l ⟨((((cfg1.win 8).blk t).view.emb (ix2 r z)) 0).val, idx2_lt0 _⟩
  rw [hrow, pay_loss_apply]
  unfold rowLoss
  rw [zeroL_eq, zero_add]
  refine Finset.sum_congr rfl fun j _ => ?_
  rw [pay_hinge_apply, pay_same_apply]
  simp only [distTile, blk1_0 V, blk1_1 V, blk1_2 V, blk1_3 V, blk1_4 V, blk1_5 V, blk1_6 V, blk1_7 V, h2, h3, h4, h5, h6, h7, h8]
  rfl

/-- REGION 1's SECOND OUTPUT: the column ends holding, at row `i`, the number of rows `j` with `i`'s label. -/
theorem out1_cnt (c : Dev nD) (l : Fin 8192 → BitVec 32)
    (h5 : ∀ (i : Fin 8192) (z : Fin 1), (V c main_v5 : S8192x1.Idx → BitVec 32) (ix2 i z) = l i)
    (h6 : ∀ (z : Fin 1) (j : Fin 8192), (V c main_v6 : S1x8192.Idx → BitVec 32) (ix2 z j) = l j) :
    (dat1 V c).arrAt 9 cfg1.N = (fun i : S8192x1.Idx => rowCnt l ⟨(i 0).val, idx2_lt0 i⟩ : S8192x1.Idx → EReal) := by
  refine (dat1 V c).arrAt_eq_of_cover 9 _ (fun t _ => ?_) (fun i => cover1_9 i)
  show (cfg1.win 9).cut (grid1.coords t) ((dat1 V c).after 9 t) = _
  rw [after1_9]
  unfold cntCol
  rw [View.canon_unit_zero hz]
  simp only [View.ld_unit_zero (S := S64x1) hz, View.ld_unit_zero (S := S1x8192) hz]
  funext y
  obtain ⟨r, z, rfl⟩ : ∃ (r : Fin 64) (z : Fin 1), y = ix2 r z := ⟨y 0, y 1, eq_ix2 y⟩
  obtain ⟨a0, b0, a1, b1, a2, b2, a3, b3, a4, b4, a5, b5, a6, b6, a7, b7, a8, b8, a9, b9⟩ := idx1 t
  have hrow : (⟨((((cfg1.win 9).blk t).view.emb (ix2 r z)) 0).val, idx2_lt0 _⟩ : Fin 8192) = row t.val (tlt1 t) r :=
    Fin.ext (by show win1_9.index t (0 : Fin 2) * 64 + 1 * r.val = t.val * 64 + r.val; rw [a9]; omega)
  show k1_pay2 (F := Ideal) (k1_pay3 (blk1 V c 4 t) (blk1 V c 5 t)) (ix2 r z)
    = rowCnt l ⟨((((cfg1.win 9).blk t).view.emb (ix2 r z)) 0).val, idx2_lt0 _⟩
  rw [hrow, pay_cnt_apply]
  unfold rowCnt
  rw [zeroL_eq, zero_add]
  refine Finset.sum_congr rfl fun j _ => ?_
  rw [pay_same_apply]
  simp only [blk1_4 V, blk1_5 V, h5, h6]
  rfl

end

end Cert.KernelIdeal.Val

end
-- ==== Proof.KernelIdealVals.lean ====
/-
  The features and the labels as plain functions of a row (and a feature) number, read off the launch memory.
-/
import proofs.«127788_j44169443672248_1_alg».proof.Proof.KernelIdealRun
import proofs.«127788_j44169443672248_1_alg».proof.Proof.Spec
import Idealize.ShloMosaic.Lib.ValueIdx

noncomputable section

namespace Cert.KernelIdeal.Val

open Idealize.ShloMosaic Idealize.ShloMosaic.TcCoe Idealize.ShloMosaic.ValueIdx Idealize.SL.Sem Cert.KernelIdeal

variable (m : (ℓ : Loc nD τ sig) → Buf (Elt Ideal) ℓ)

/-- The feature matrix core `c` is launched with: entry `k` of row `i`. -/
def X (c : Dev nD) : Fin 8192 → Fin 128 → EReal :=
  fun i k => (m ((c : Thread nD τ).loc main_arg0) : S8192x128.Idx → EReal) (ix2 i k)

/-- The labels core `c` is launched with: row `i`'s label word. -/
def L (c : Dev nD) : Fin 8192 → BitVec 32 :=
  fun i => (m ((c : Thread nD τ).loc main_arg1) : S8192.Idx → BitVec 32) (ix1 i)

end Cert.KernelIdeal.Val

end
-- ==== Proof.KernelIdealHost.lean ====
/-
  The host side of the tiled program, read at an index. Before the first kernel region the host computes the row sums
  of squares of the features and lays them, and the labels, out as a column and as a row; between the regions it lays
  the first region's column out as a row; after the second region it sums the two columns the region leaves, and
  divides the first total by twice the second. With the two columns at the row losses and the row counts of
  Spec.lean, that quotient is the loss.
-/
import proofs.«127788_j44169443672248_1_alg».proof.Proof.KernelIdealVals
import proofs.«127788_j44169443672248_1_alg».proof.Proof.LibColumn
import Idealize.ShloMosaic.Lib.StableHlo.Run
import Idealize.ShloMosaic.Lib.ValueLayout
import Idealize.ShloMosaic.Lib.IdealHost
import Idealize.ShloMosaic.PureOps.Ideal.Laws

noncomputable section

namespace Cert.KernelIdeal.Val

open Idealize.ShloMosaic Idealize.ShloMosaic.TcCoe Idealize.ShloMosaic.ValueIdx Idealize.SL.Sem Cert.KernelIdeal Cert.KernelIdeal.Gen Cert.KernelIdeal.Fr Cert.Lifted

/-! ## The host's two sums, over variables -/

/-- The sum over the columns of the squares of an array's entries, from the zero literal, read at row `i`. -/
theorem rowsq_at (A : FVec Ideal S8192x128 .f32) (h' : S8192x128.ReducesTo [1] S8192) (hu : 0 < S_.numel) (i : Fin 8192) :
    Host.reduceAdd (F := Ideal) (mulf A A) (constant (F := Ideal) S_ .f32 0x00000000#32) h' hu (ix1 i)
      = zeroL + ∑ k : Fin 128, A (ix2 i k) * A (ix2 i k) := by
  simp only [Host.reduceAdd, Ideal.hostReduceAdd_def]
  rw [Ideal.hostReduceAdd_single h' (by decide)]
  refine congrArg (_ + ·) (Finset.sum_congr rfl fun k _ => ?_)
  exact congrArg (mulf A A) (funext fun a => Fin.ext (by match a with | ⟨0, _⟩ => rfl | ⟨1, _⟩ => rfl))

/-- The sum of every entry of a column, from the zero literal: the sum over the rows of the column's entries. -/
theorem colsum_total (v : FVec Ideal S8192x1 .f32) (h' : S8192x1.ReducesTo [0, 1] S_) (hu : 0 < S_.numel)
    (f : Fin 8192 → EReal) (hv : ∀ (i : Fin 8192) (z : Fin 1), v (ix2 i z) = f i) (j : S_.Idx) :
    Host.reduceAdd (F := Ideal) v (constant (F := Ideal) S_ .f32 0x00000000#32) h' hu j = zeroL + ∑ i : Fin 8192, f i := by
  simp only [Host.reduceAdd, Ideal.hostReduceAdd_def]
  rw [Ideal.hostReduceAdd_total h' (fun b => b.elim0), sum_idx2]
  refine congrArg (_ + ·) (Finset.sum_congr rfl fun i _ => ?_)
  rw [Fin.sum_univ_one]
  exact hv i 0

variable (m : (ℓ : Loc nD τ sig) → Buf (Elt Ideal) ℓ)

/-! ## Before the first region -/

/-- The features in the narrower format are the features: the format change is the identity on extended reals. -/
theorem E1_v2 (c : Dev nD) (i : Fin 8192) (k : Fin 128) : (E1 m c main_v2 : S8192x128.Idx → EReal) (ix2 i k) = X m c i k := by
  show (StableHlo.after hostOps0 (fun b => m (c, b)) (Proc.devRef .tc main_v2) : S8192x128.Idx → EReal) (ix2 i k) = _
  after_results
  rfl

/-- The column of the row sums of squares. -/
theorem E1_v3 (c : Dev nD) (i : Fin 8192) (z : Fin 1) : (E1 m c main_v3 : S8192x1.Idx → EReal) (ix2 i z) = sqn (X m c) i := by
  show (StableHlo.after hostOps0 (fun b => m (c, b)) (Proc.devRef .tc main_v3) : S8192x1.Idx → EReal) (ix2 i z) = _
  after_results
  refine (Cert.LibColumn.shapeCast_a_a1_apply _ _ i z).trans ?_
  exact rowsq_at _ _ _ i

/-- The row of the row sums of squares. -/
theorem E1_v4 (c : Dev nD) (z : Fin 1) (j : Fin 8192) : (E1 m c main_v4 : S1x8192.Idx → EReal) (ix2 z j) = sqn (X m c) j := by
  show (StableHlo.after hostOps0 (fun b => m (c, b)) (Proc.devRef .tc main_v4) : S1x8192.Idx → EReal) (ix2 z j) = _
  after_results
  refine (shapeCast_a_1a_apply _ _ z j).trans ?_
  exact rowsq_at _ _ _ j

/-- The column of the labels. -/
theorem E1_v5 (c : Dev nD) (i : Fin 8192) (z : Fin 1) : (E1 m c main_v5 : S8192x1.Idx → BitVec 32) (ix2 i z) = L m c i := by
  show (StableHlo.after hostOps0 (fun b => m (c, b)) (Proc.devRef .tc main_v5) : S8192x1.Idx → BitVec 32) (ix2 i z) = _
  after_results
  exact Cert.LibColumn.shapeCast_a_a1_apply _ _ i z

/-- The row of the labels. -/
theorem E1_v6 (c : Dev nD) (z : Fin 1) (j : Fin 8192) : (E1 m c main_v6 : S1x8192.Idx → BitVec 32) (ix2 z j) = L m c j := by
  show (StableHlo.after hostOps0 (fun b => m (c, b)) (Proc.devRef .tc main_v6) : S1x8192.Idx → BitVec 32) (ix2 z j) = _
  after_results
  exact shapeCast_a_1a_apply _ _ z j

/-! ## Between the regions -/

/-- The one reshape between the regions writes one buffer, and the first region one: every other buffer is kept. -/
theorem E3_keep (c : Dev nD) (b : Ref sig .tc) (h7 : b ≠ main_v7) (h8 : b ≠ main_v8) : E3 m c b = E1 m c b :=
  (W3_of m c b (fun h => h8 (List.mem_singleton.mp h))).trans (W2_of_ne m c b h7)

/-- The first region's column is as the region left it. -/
theorem E3_v7 (c : Dev nD) : E3 m c main_v7 = (dat0 (E1 m) c).arrAt 6 cfg0.N :=
  (W3_of m c main_v7 (by decide)).trans (W2_out m c)

/-- The first region's column laid out as a row. -/
theorem E3_v8 (c : Dev nD) (z : Fin 1) (j : Fin 8192) :
    (E3 m c main_v8 : S1x8192.Idx → EReal) (ix2 z j) = (E3 m c main_v7 : S8192x1.Idx → EReal) (ix2 j (0 : Fin 1)) := by
  have e7 : (E3 m c main_v7 : S8192x1.Idx → EReal) = W2 m c (Proc.devRef .tc main_v7) := W3_of m c main_v7 (by decide)
  refine Eq.trans ?_ (congrFun e7 (ix2 j (0 : Fin 1))).symm
  show (StableHlo.after hostOps1 (W2 m c) (Proc.devRef .tc main_v8) : S1x8192.Idx → EReal) (ix2 z j) = _
  after_results
  exact Cert.LibColumn.shapeCast_a1_1a_apply _ _ z j

/-! ## After the second region -/

/-- With the second region's two columns at the row losses and the row counts, the host's quotient is the loss. -/
theorem tail_loss (c : Dev nD)
    (hl : ∀ (i : Fin 8192) (z : Fin 1), (W4 m c main_v9_0 : S8192x1.Idx → EReal) (ix2 i z) = rowLoss (X m c) (L m c) i)
    (hc : ∀ (i : Fin 8192) (z : Fin 1), (W4 m c main_v9_1 : S8192x1.Idx → EReal) (ix2 i z) = rowCnt (L m c) i) :
    (W5 m c main_v13 : S_.Idx → EReal) = fun _ => loss (X m c) (L m c) := by
  show StableHlo.after hostOps2 (W4 m c) (Proc.devRef .tc main_v13) = _
  after_results
  funext j
  rw [hostDivf_apply, mulf_apply, constant_apply,
    colsum_total (W4 m c (Proc.devRef .tc main_v9_0)) _ _ _ hl j,
    colsum_total (W4 m c (Proc.devRef .tc main_v9_1)) _ _ _ hc j]
  rfl

end Cert.KernelIdeal.Val

end
-- ==== Proof.KernelIdealValue.lean ====
/-
  The idealized kernel program's result: the loss of the features and labels it is launched with.

  After the first host stretch the arrays hold the features, their squared norms as a column and as a row, and the
  labels likewise; region 0 leaves the per-row sums S; the reshape between the regions gives S as a row; region 1
  leaves the per-row sums of the hinged squares and the per-row counts; the last host stretch adds each up and divides.
-/
import proofs.«127788_j44169443672248_1_alg».proof.Proof.KernelIdealOut1
import proofs.«127788_j44169443672248_1_alg».proof.Proof.KernelIdealHost

noncomputable section

namespace Cert.KernelIdeal.Val

open Idealize.ShloMosaic Idealize.ShloMosaic.TcCoe Idealize.ShloMosaic.ValueIdx Idealize.SL.Sem
open Cert.KernelIdeal Cert.KernelIdeal.Gen Cert.KernelIdeal.Fr Cert.Lifted

variable (m : (ℓ : Loc nD τ sig) → Buf (Elt Ideal) ℓ)

/-- Region 0's output column: row `i` holds `S i`. -/
theorem S_col (c : Dev nD) (i : Fin 8192) (z : Fin 1) :
    (E3 m c main_v7 : S8192x1.Idx → EReal) (ix2 i z) = negSum (X m c) (L m c) i := by
  rw [E3_v7 m c, out0_value (E1 m) c (X m c) (L m c) (E1_v2 m c) (E1_v3 m c) (E1_v4 m c) (E1_v5 m c) (E1_v6 m c)]

/-- The same sums as a row, after the reshape between the regions. -/
theorem S_row (c : Dev nD) (z : Fin 1) (j : Fin 8192) :
    (E3 m c main_v8 : S1x8192.Idx → EReal) (ix2 z j) = negSum (X m c) (L m c) j :=
  (E3_v8 m c z j).trans (S_col m c j 0)

theorem E3_h2 (c : Dev nD) (i : Fin 8192) (k : Fin 128) : (E3 m c main_v2 : S8192x128.Idx → EReal) (ix2 i k) = X m c i k := by
  rw [E3_keep m c main_v2 (by decide) (by decide)]; exact E1_v2 m c i k
theorem E3_h3 (c : Dev nD) (i : Fin 8192) (z : Fin 1) : (E3 m c main_v3 : S8192x1.Idx → EReal) (ix2 i z) = sqn (X m c) i := by
  rw [E3_keep m c main_v3 (by decide) (by decide)]; exact E1_v3 m c i z
theorem E3_h4 (c : Dev nD) (z : Fin 1) (j : Fin 8192) : (E3 m c main_v4 : S1x8192.Idx → EReal) (ix2 z j) = sqn (X m c) j := by
  rw [E3_keep m c main_v4 (by decide) (by decide)]; exact E1_v4 m c z j
theorem E3_h5 (c : Dev nD) (i : Fin 8192) (z : Fin 1) : (E3 m c main_v5 : S8192x1.Idx → BitVec 32) (ix2 i z) = L m c i := by
  rw [E3_keep m c main_v5 (by decide) (by decide)]; exact E1_v5 m c i z
theorem E3_h6 (c : Dev nD) (z : Fin 1) (j : Fin 8192) : (E3 m c main_v6 : S1x8192.Idx → BitVec 32) (ix2 z j) = L m c j := by
  rw [E3_keep m c main_v6 (by decide) (by decide)]; exact E1_v6 m c z j

/-- THE RESULT: at the return, the result buffer holds the loss of the launch's features and labels. -/
theorem value (c : Dev nD) : (W5 m c main_v13 : S_.Idx → EReal) = fun _ => loss (X m c) (L m c) :=
  tail_loss m c
    (fun i z => by
      rw [W4_out0 m c, out1_loss (E3 m) c (X m c) (L m c) (E3_h2 m c) (E3_h3 m c) (E3_h4 m c) (E3_h5 m c) (E3_h6 m c) (S_col m c) (S_row m c)])
    (fun i z => by
      rw [W4_out1 m c, out1_cnt (E3 m) c (L m c) (E3_h5 m c) (E3_h6 m c)])

end Cert.KernelIdeal.Val

end
-- ==== Proof.RefCount.lean ====
/-
  The integer count of the equal-label pairs. A sum in 32-bit words of 2^26 words, each 0 or 1, neither wraps at 2^32
  nor reaches the sign bit, so read signed it is the number of ones; converted to an extended real, that number is the
  sum of the 0/1 indicators. Addition of words is commutative and associative, so the order in which the reduction
  visits the pairs does not matter.
-/
import proofs.«127788_j44169443672248_1_alg».proof.Proof.Spec
import Idealize.ShloMosaic.PureOps.Reduce
import Idealize.ShloMosaic.Lib.Affine
import Idealize.ShloMosaic.Lib.ValueIdx

noncomputable section

namespace Cert.Lifted

open Idealize.ShloMosaic

/-- A fold by 32-bit addition from the zero word is the word of the natural-number sum of the unsigned values. -/
theorem fold_addi_eq_ofNat {ι : Type} (s : Finset ι) (f : ι → BitVec 32) :
    s.fold IntOp.addi 0#32 f = BitVec.ofNat 32 (∑ i ∈ s, (f i).toNat) := by
  classical
  induction s using Finset.induction_on with
  | empty => rfl
  | insert a s ha ih =>
    rw [Finset.fold_insert ha, Finset.sum_insert ha, ih, BitVec.ofNat_add, BitVec.ofNat_toNat, BitVec.setWidth_eq]
    rfl

/-- With every word at most one and fewer than 2^31 of them, the fold read signed is the number of ones. -/
theorem fold_addi_toInt {ι : Type} (s : Finset ι) (f : ι → BitVec 32) (hf : ∀ i ∈ s, (f i).toNat ≤ 1)
    (hs : s.card < 2 ^ 31) : (s.fold IntOp.addi 0#32 f).toInt = ((∑ i ∈ s, (f i).toNat : ℕ) : ℤ) := by
  have hle : ∑ i ∈ s, (f i).toNat ≤ s.card := by
    calc ∑ i ∈ s, (f i).toNat ≤ ∑ _i ∈ s, 1 := Finset.sum_le_sum hf
      _ = s.card := by rw [Finset.sum_const, smul_eq_mul, mul_one]
  have hN : (s.fold IntOp.addi 0#32 f).toNat = ∑ i ∈ s, (f i).toNat := by
    rw [fold_addi_eq_ofNat, BitVec.toNat_ofNat, Nat.mod_eq_of_lt (by omega)]
  rw [BitVec.toInt_eq_toNat_of_lt (by rw [hN]; omega), hN]

/-- The conversion of a natural-number sum is the extended-real sum of the conversions. -/
theorem coe_nat_sum {ι : Type} (s : Finset ι) (g : ι → ℕ) :
    (((∑ i ∈ s, g i : ℕ) : ℝ) : EReal) = ∑ i ∈ s, (((g i : ℕ) : ℝ) : EReal) := by
  classical
  induction s using Finset.induction_on with
  | empty => simp
  | insert a s ha ih => rw [Finset.sum_insert ha, Finset.sum_insert ha, Nat.cast_add, EReal.coe_add, ih]

/-- The equality comparison's one-bit word. -/
theorem cmpi_eq_word (a b : BitVec 32) : IntOp.cmpi .eq a b = if a = b then 1#1 else 0#1 := by
  by_cases h : a = b
  · rw [if_pos h]; exact IntOp.cmpi_eq.2 h
  · rw [if_neg h]; exact ValueIdx.eq_zero_of_ne_one (fun e => h (IntOp.cmpi_eq.1 e))

/-- A total reduction by 32-bit addition into a result of one index is the fold over every operand index. -/
theorem reduce_addi_total {s t u : Shape} {axes : List (Fin s.rank)} (h : s.ReducesTo axes t) (ht : ∀ b, t.size b = 1)
    (w : s.Idx → BitVec 32) (init : u.Idx → BitVec 32) (hu : 0 < u.numel) (j : t.Idx) :
    Host.reduce IntOp.addi w init h hu j = Finset.univ.fold IntOp.addi (init (Shape.Idx.first hu)) w := by
  rw [Host.reduce_eq_fold, Finset.filter_true_of_mem fun i _ => funext fun b => Fin.ext (by
    have := (h.drop i b).isLt; have := (j b).isLt; have := ht b; omega)]

/-- THE COUNT: the words of the equal-label comparison, widened to 32 bits, summed in 32-bit words over all pairs from
    the zero word and converted as a signed integer, are the extended-real sum of the indicators. -/
theorem count_eq (l : Fin 8192 → BitVec 32) (w : (⟨2, ![8192, 8192]⟩ : Shape).Idx → BitVec 32)
    (hw : ∀ i j : Fin 8192, w (ValueIdx.ix2 i j) = (IntOp.cmpi .eq (l i) (l j)).setWidth 32) :
    ((((Finset.univ.fold IntOp.addi 0#32 w).toInt : ℤ) : ℝ) : EReal) = ∑ i : Fin 8192, ∑ j : Fin 8192, same l i j := by
  have hword : ∀ i j : Fin 8192, (w (ValueIdx.ix2 i j)).toNat = if l i = l j then 1 else 0 := by
    intro i j
    rw [hw, cmpi_eq_word]
    by_cases e : l i = l j
    · rw [if_pos e, if_pos e]; rfl
    · rw [if_neg e, if_neg e]; rfl
  have hle : ∀ p ∈ (Finset.univ : Finset (⟨2, ![8192, 8192]⟩ : Shape).Idx), (w p).toNat ≤ 1 := by
    intro p _
    obtain ⟨a, b, rfl⟩ : ∃ (a b : Fin 8192), p = ValueIdx.ix2 a b := ⟨p 0, p 1, ValueIdx.eq_ix2 p⟩
    rw [hword]
    split_ifs <;> omega
  have hcard : (Finset.univ : Finset (⟨2, ![8192, 8192]⟩ : Shape).Idx).card < 2 ^ 31 := by
    rw [Finset.card_univ, Fintype.card_congr (ValueIdx.idxEquiv2 (n0 := 8192) (n1 := 8192)), Fintype.card_prod,
      Fintype.card_fin]
    norm_num
  rw [fold_addi_toInt _ w hle hcard, Int.cast_natCast, coe_nat_sum, ValueIdx.sum_idx2]
  refine Finset.sum_congr rfl fun i _ => Finset.sum_congr rfl fun j _ => ?_
  rw [hword]
  unfold same
  by_cases e : l i = l j
  · rw [if_pos e, if_pos e, Nat.cast_one, EReal.coe_one]
  · rw [if_neg e, if_neg e, Nat.cast_zero, EReal.coe_zero]

end Cert.Lifted

end
-- ==== Proof.RefValue.lean ====
/-
  The reference program's result is the lifted-structure loss of Spec.lean. Read one operation at a time, its stages are
  the specification's functions at an index: the row sums of squares (sqn), the clamped distances (dist), the sums of
  exp (1 − d) over the differently labelled (negSum), and the hinged squares chosen on the equal-label bit
  (hinge2 · same). Its last three stages are the sum of those over all pairs, the integer count of the equal-label
  pairs converted, and the quotient of the first by twice the second: the loss in the arrangement by pairs.
-/
import proofs.«127788_j44169443672248_1_alg».proof.Proof.Gen.ReferenceIdeal.Read
import proofs.«127788_j44169443672248_1_alg».proof.Proof.Spec
import proofs.«127788_j44169443672248_1_alg».proof.Proof.RefAlgebra
import proofs.«127788_j44169443672248_1_alg».proof.Proof.RefCount
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
  Cert.Lifted

variable (x0 : (⟨S8192x128, .f32⟩ : BufTy).Contents (Elt Ideal)) (x1 : (⟨S8192, .i32⟩ : BufTy).Contents (Elt Ideal))

/-- The feature matrix and the labels by coordinates. -/
abbrev X : Fin 8192 → Fin 128 → EReal := fun i k => x0 (ix2 i k)
abbrev Lb : Fin 8192 → BitVec 32 := fun i => x1 (ix1 i)

/-! ## Words on the equal-label bit -/

/-- The converted complement of the equality bit is the indicator of unequal labels. -/
theorem differ_word (a b : BitVec 32) :
    (FloatOps.uitofp (F := Ideal) .f32 (~~~(IntOp.cmpi .eq a b)) : EReal) = if a = b then 0 else 1 := by
  rw [cmpi_eq_word]
  by_cases e : a = b
  · rw [if_pos e, if_pos e]
    show ((((~~~(1#1 : BitVec 1)).toNat : ℕ) : ℝ) : EReal) = 0
    rw [show (~~~(1#1 : BitVec 1)).toNat = 0 from by decide, Nat.cast_zero, EReal.coe_zero]
  · rw [if_neg e, if_neg e]
    show ((((~~~(0#1 : BitVec 1)).toNat : ℕ) : ℝ) : EReal) = 1
    rw [show (~~~(0#1 : BitVec 1)).toNat = 1 from by decide, Nat.cast_one, EReal.coe_one]

/-- A select on the equality bit is the choice on the equality. -/
theorem select_word {α : Type} (a b : BitVec 32) (u v : α) :
    Scalar.select (IntOp.cmpi .eq a b) u v = if a = b then u else v := by
  rw [cmpi_eq_word]
  by_cases e : a = b
  · rw [if_pos e, if_pos e, select_one]
  · rw [if_neg e, if_neg e, select_zero]

/-! ## The stages at an index -/

/-- The row sums of squares. -/
theorem v1_at (i : Fin 8192) : val_main_v1 (F := Ideal) x0 (ix1 i) = sqn (X x0) i := by
  rw [val_main_v1_apply, val_main_cst_apply]
  have e : ∀ k : Fin 128, idx_main_v1 (ix1 i) k = ix2 i k := fun k => funext fun a => Fin.ext (by
    match a with | ⟨0, _⟩ => rfl | ⟨1, _⟩ => rfl)
  simp only [e, val_main_v0_apply, Ideal.mulf_def, Ideal.ofBits_def]
  rfl

/-- The clamped distances. -/
theorem v14_at (i j : Fin 8192) : val_main_v14 (F := Ideal) x0 (ix2 i j) = dist (X x0) i j := by
  rw [val_main_v14_apply, val_main_v13_apply, val_main_v11_apply, val_main_v8_apply, val_main_v7_apply,
    val_main_v2_apply, val_main_v6_apply, val_main_v5_apply, val_main_cst_0_apply, val_main_v4_apply,
    val_main_v10_apply, val_main_v9_apply, val_main_v12_apply, val_main_cst_1_apply]
  have e7 : idx_main_v2 (idx_main_v7 (ix2 i j)) = ix1 i := funext fun a => Fin.ext (by
    match a with | ⟨0, _⟩ => rfl)
  have e10 : idx_main_v9 (idx_main_v10 (ix2 i j)) = ix1 j := funext fun a => Fin.ext (by
    match a with | ⟨0, _⟩ => rfl)
  have el : ∀ k : Fin 128, lidx_main_v4 (ix2 i j) k = ix2 i k := fun k => funext fun a => Fin.ext (by
    match a with | ⟨0, _⟩ => rfl | ⟨1, _⟩ => rfl)
  have er : ∀ k : Fin 128, idx_main_v3 (ridx_main_v4 (ix2 i j) k) = ix2 j k := fun k => funext fun a => Fin.ext (by
    match a with | ⟨0, _⟩ => rfl | ⟨1, _⟩ => rfl)
  simp only [e7, e10, el, er, val_main_v3_apply, v1_at, Ideal.mulf_def, Ideal.addf_def, Ideal.subf_def,
    Ideal.maximumf_def, Ideal.hostUnary_sqrt_def, Ideal.ofBits_def]
  rfl

/-- The equal-label bit. -/
theorem v19_at (i j : Fin 8192) :
    val_main_v19 (F := Ideal) x1 (ix2 i j) = IntOp.cmpi .eq (Lb x1 i) (Lb x1 j) := by
  rw [val_main_v19_apply, val_main_v17_apply, val_main_v15_apply, val_main_v18_apply, val_main_v16_apply]
  have e1 : idx_main_v15 (idx_main_v17 (ix2 i j)) = ix1 i := funext fun a => Fin.ext (by
    match a with | ⟨0, _⟩ => rfl)
  have e2 : idx_main_v16 (idx_main_v18 (ix2 i j)) = ix1 j := funext fun a => Fin.ext (by
    match a with | ⟨0, _⟩ => rfl)
  rw [e1, e2]

/-- The sums of exp (1 − d) over the differently labelled. -/
theorem v26_at (i : Fin 8192) : val_main_v26 (F := Ideal) x0 x1 (ix1 i) = negSum (X x0) (Lb x1) i := by
  rw [val_main_v26_apply, val_main_cst_3_apply]
  have e : ∀ k : Fin 8192, idx_main_v26 (ix1 i) k = ix2 i k := fun k => funext fun a => Fin.ext (by
    match a with | ⟨0, _⟩ => rfl | ⟨1, _⟩ => rfl)
  simp only [e, val_main_v25_apply, val_main_v23_apply, val_main_v22_apply, val_main_v21_apply, val_main_cst_2_apply,
    val_main_v24_apply, val_main_v20_apply, v19_at, v14_at, differ_word, Ideal.mulf_def, Ideal.subf_def,
    Ideal.hostUnary_exp_def, Ideal.ofBits_def]
  rfl

/-- The hinged squares chosen on the equal-label bit. -/
theorem v37_at (i j : Fin 8192) :
    val_main_v37 (F := Ideal) x0 x1 (ix2 i j) = hinge2 (X x0) (Lb x1) i j * same (Lb x1) i j := by
  refine Eq.trans ?_ (ite_same (Lb x1) i j (hinge2 (X x0) (Lb x1) i j))
  rw [val_main_v37_apply, v19_at, select_word, val_main_v36_apply, val_main_v35_apply, val_main_v33_apply,
    val_main_v32_apply, val_main_v31_apply, val_main_v29_apply, val_main_v27_apply, val_main_v30_apply,
    val_main_v28_apply, val_main_v34_apply, val_main_cst_4_apply, val_main_call0_v1_apply, val_main_call0_v0_apply,
    val_main_cst_5_apply, v14_at]
  have e29 : idx_main_v27 (idx_main_v29 (ix2 i j)) = ix1 i := funext fun a => Fin.ext (by
    match a with | ⟨0, _⟩ => rfl)
  have e30 : idx_main_v28 (idx_main_v30 (ix2 i j)) = ix1 j := funext fun a => Fin.ext (by
    match a with | ⟨0, _⟩ => rfl)
  rw [e29, e30, v26_at, v26_at]
  rfl

/-- The sum of the chosen hinged squares over all pairs. -/
theorem v38_at (i : S_.Idx) :
    val_main_v38 (F := Ideal) x0 x1 i
      = zeroL + ∑ a : Fin 8192, ∑ b : Fin 8192, hinge2 (X x0) (Lb x1) a b * same (Lb x1) a b := by
  rw [val_main_v38_apply, val_main_cst_6_apply, sum_idx2]
  simp only [v37_at]
  rfl

/-- The integer count of the equal-label pairs, converted. -/
theorem v41_at (i : S_.Idx) :
    val_main_v41 (F := Ideal) x1 i = ∑ a : Fin 8192, ∑ b : Fin 8192, same (Lb x1) a b := by
  rw [val_main_v41_apply]
  unfold val_main_v40
  rw [reduce_addi_total reducesTo_S8192x8192_S_d0_1 (fun b => b.elim0)]
  exact count_eq (Lb x1) (val_main_v39 (F := Ideal) x1) (fun a b => by rw [val_main_v39_apply, v19_at])

/-! ## The result -/

theorem ref_is_loss
    (x0 : (⟨Cert.ReferenceIdeal.S8192x128, .f32⟩ : BufTy).Contents (Elt Ideal)) (x1 : (⟨Cert.ReferenceIdeal.S8192, .i32⟩ : BufTy).Contents (Elt Ideal)) :
    Cert.ReferenceIdeal.Read.val_main_v43 (F := Ideal) x0 x1
      = fun _ => Cert.Lifted.loss (fun i k => x0 (ValueIdx.ix2 i k)) (fun i => x1 (ValueIdx.ix1 i)) := by
  funext i
  rw [val_main_v43_apply, val_main_v42_apply, val_main_cst_7_apply, v38_at, v41_at, loss_eq_pairs]
  rfl

end Cert.ReferenceIdeal.RefValue

end
-- ==== Proof.lean ====
/-
  The certificate of the lifted-structure loss.

  The kernel program computes, for 8192 feature rows of 128 entries and their labels, the squared norms on the host,
  then in a first tiled pass (64 rows of the features against all rows, on a grid of 128 points) the sums
  S i = Σ_{j : l j ≠ l i} exp (1 − d i j) of the clamped Euclidean distances d, then in a second tiled pass the row sums
  of max (log (S i + S j) + d i j, 0)² over the equally labelled pairs and the row counts of such pairs, and on the
  host the two totals and their quotient with the factor two. The reference computes the same loss as one sum over all
  pairs, the count taken in integers.

  Frames: each program runs to the end from any memory, faulting nowhere, and leaves both argument arrays as
  launched — for the two kernel programs from the run through their three host stretches and two regions, for the
  reference from its run. The idealization rewrote no operation, so there is nothing to preserve. At the ideal
  values both programs end with the loss of the launch's features and labels as one extended real: a change of float
  format is the identity, the matrix unit's product and the host's are the same sum, a sum may be regrouped into
  rows, a product with a 0/1 indicator is the selection, and the integer count of at most 2^26 pairs converts exactly.
  No finiteness of the inputs is used.
-/
import proofs.«127788_j44169443672248_1_alg».proof.Defs
import proofs.«127788_j44169443672248_1_alg».proof.Proof.Gen.Kernel
import proofs.«127788_j44169443672248_1_alg».proof.Proof.Gen.KernelIdeal
import proofs.«127788_j44169443672248_1_alg».proof.Proof.Gen.ReferenceIdeal
import proofs.«127788_j44169443672248_1_alg».proof.Proof.Gen.ReferenceIdeal.Run
import proofs.«127788_j44169443672248_1_alg».proof.Proof.Gen.ReferenceIdeal.Read
import proofs.«127788_j44169443672248_1_alg».proof.Proof.Gen.Pre_finite_inputs
import proofs.«127788_j44169443672248_1_alg».proof.Proof.KernelRun
import proofs.«127788_j44169443672248_1_alg».proof.Proof.KernelIdealRun
import proofs.«127788_j44169443672248_1_alg».proof.Proof.KernelIdealValue
import proofs.«127788_j44169443672248_1_alg».proof.Proof.RefValue
import Idealize.ShloMosaic.Adequacy
import Idealize.ShloMosaic.Init

noncomputable section

namespace Cert.Proof

open Idealize.ShloMosaic Idealize.SL.Sem

/-- The word-level kernel program runs, and its argument arrays end as launched. -/
theorem frame_kernel : Cert.frame_Kernel := fun m ρ _ => Cert.Kernel.Fr.frame (F := Bits) m ρ

/-- The idealized kernel program runs, and its argument arrays end as launched. -/
theorem frame_kernelIdeal : Cert.frame_KernelIdeal := fun m ρ _ => Cert.KernelIdeal.Fr.frame (F := Ideal) m ρ

/-- The idealized reference runs, and its argument arrays end as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel program and the reference, run from memories that agree on the features and the
    labels, both end with the loss of those features and labels, and with their arguments unchanged. -/
theorem algebraic : Cert.algebraic_KernelIdeal_ReferenceIdeal := by
  intro m ρ m' ρ' _ hagree
  refine ⟨fun c => (fun _ => Cert.Lifted.loss (Cert.KernelIdeal.Val.X m c) (Cert.KernelIdeal.Val.L m c)), ?_, ?_⟩
  · exact (θ_run Cert.KernelIdeal.defs _ _).mono (fun r h c =>
      ⟨(h c _ (Cert.KernelIdeal.Fr.mem_uc Cert.KernelIdeal.main_v13 (by decide))).trans (Cert.KernelIdeal.Val.value m c),
       (h c _ (Cert.KernelIdeal.Fr.mem_uc Cert.KernelIdeal.main_arg0 (by decide))).trans (Cert.KernelIdeal.Fr.W5_main_arg0 m c),
       (h c _ (Cert.KernelIdeal.Fr.mem_uc Cert.KernelIdeal.main_arg1 (by decide))).trans (Cert.KernelIdeal.Fr.W5_main_arg1 m c)⟩)
      (Cert.KernelIdeal.Fr.run_all (F := Ideal) m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v43_eq, Cert.ReferenceIdeal.RefValue.ref_is_loss, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
